-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x2048 : Shape := ⟨2, ![50000, 2048]⟩
abbrev S2x1600000 : Shape := ⟨2, ![2, 1600000]⟩
abbrev S128x2048 : Shape := ⟨2, ![128, 2048]⟩
abbrev S128 : Shape := ⟨1, ![128]⟩
abbrev S64x128 : Shape := ⟨2, ![64, 128]⟩
abbrev S64 : Shape := ⟨1, ![64]⟩
abbrev S32x64 : Shape := ⟨2, ![32, 64]⟩
abbrev S32 : Shape := ⟨1, ![32]⟩
abbrev S3x32 : Shape := ⟨2, ![3, 32]⟩
abbrev S3 : Shape := ⟨1, ![3]⟩
abbrev S_ : Shape := ⟨0, ![]⟩

class Facts : Prop where
  bcast_S_S50000x2048 : S_.BroadcastsInDim S50000x2048 (![] : Fin 0 → Fin S50000x2048.rank)
  reducesTo_S50000x2048_S_d0_1 : S50000x2048.ReducesTo [0, 1] S_
  h_S_ : 0 < S_.numel
  bcast_S_S128x2048 : S_.BroadcastsInDim S128x2048 (![] : Fin 0 → Fin S128x2048.rank)
  reducesTo_S128x2048_S_d0_1 : S128x2048.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S3x32 : S_.BroadcastsInDim S3x32 (![] : Fin 0 → Fin S3x32.rank)
  reducesTo_S3x32_S_d0_1 : S3x32.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_v48 : IVec S_ 1) (main_v49 : FVec F S3 .f32) (main_v50 : FVec F S3 .f32) : IVec S_ 1 :=
  let main_v51 : IVec S3 1 := cmpf .olt main_v49 main_v50
  let main_c_19 : IVec S_ 1 := constantI S_ 1 1#1
  let main_v52 : IVec S_ 1 := (fun x v => Host.reduce IntOp.andi x v reducesTo_S3_S_d0 h_S_) main_v51 main_c_19
  let main_v53 : IVec S_ 1 := andi main_v48 main_v52
  main_v53

def fn_part2 {F : FTy → Type} [FloatOps F] (main_arg8 : FVec F S32 .f32) (main_arg9 : FVec F S32x64 .f32) (main_arg10 : FVec F S3x32 .f32) (main_arg11 : FVec F S3 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x64 .f32 := Host.absf main_arg9
  let main_cst_14 : FVec F S_ .f32 := constant S_ .f32 0x7F800000#32
  let main_v40 : FVec F S32x64 .f32 := broadcastInDim S32x64 ![] bcast_S_S32x64 main_cst_14
  let main_v41 : IVec S32x64 1 := cmpf .olt main_v39 main_v40
  let main_c_15 : IVec S_ 1 := constantI S_ 1 1#1
  let main_v42 : IVec S_ 1 := (fun x v => Host.reduce IntOp.andi x v reducesTo_S32x64_S_d0_1 h_S_) main_v41 main_c_15
  let main_v43 : IVec S_ 1 := andi main_v38 main_v42
  let main_v44 : FVec F S3x32 .f32 := Host.absf main_arg10
  let main_cst_16 : FVec F S_ .f32 := constant S_ .f32 0x7F800000#32
  let main_v45 : FVec F S3x32 .f32 := broadcastInDim S3x32 ![] bcast_S_S3x32 main_cst_16
  let main_v46 : IVec S3x32 1 := cmpf .olt main_v44 main_v45
  let main_c_17 : IVec S_ 1 := constantI S_ 1 1#1
  let main_v47 : IVec S_ 1 := (fun x v => Host.reduce IntOp.andi x v reducesTo_S3x32_S_d0_1 h_S_) main_v46 main_c_17
  let main_v48 : IVec S_ 1 := andi main_v43 main_v47
  let main_v49 : FVec F S3 .f32 := Host.absf main_arg11
  let main_cst_18 : FVec F S_ .f32 := constant S_ .f32 0x7F800000#32
  let main_v50 : FVec F S3 .f32 := broadcastInDim S3 ![] bcast_S_S3 main_cst_18
  fn_part3 (F := F) main_v48 main_v49 main_v50

def fn_part1 {F : FTy → Type} [FloatOps F] (main_arg5 : FVec F S64 .f32) (main_arg6 : FVec F S64x128 .f32) (main_arg7 : FVec F S32x64 .f32) (main_arg8 : FVec F S32 .f32) (main_arg9 : FVec F S32x64 .f32) (main_arg10 : FVec F S3x32 .f32) (main_arg11 : FVec F S3 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S32x64 .f32 := Host.absf main_arg7
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x2048 .f32) (main_arg1 : IVec S2x1600000 32) (main_arg2 : FVec F S128x2048 .f32) (main_arg3 : FVec F S128 .f32) (main_arg4 : FVec F S64x128 .f32) (main_arg5 : FVec F S64 .f32) (main_arg6 : FVec F S64x128 .f32) (main_arg7 : FVec F S32x64 .f32) (main_arg8 : FVec F S32 .f32) (main_arg9 : FVec F S32x64 .f32) (main_arg10 : FVec F S3x32 .f32) (main_arg11 : FVec F S3 .f32) : IVec S_ 1 :=
  let main_v0 : FVec F S50000x2048 .f32 := Host.absf main_arg0
  let main_cst : FVec F S_ .f32 := constant S_ .f32 0x7F800000#32
  let main_v1 : FVec F S50000x2048 .f32 := broadcastInDim S50000x2048 ![] bcast_S_S50000x2048 main_cst
  let main_v2 : IVec S50000x2048 1 := cmpf .olt main_v0 main_v1
  let main_c : IVec S_ 1 := constantI S_ 1 1#1
  let main_v3 : IVec S_ 1 := (fun x v => Host.reduce IntOp.andi x v reducesTo_S50000x2048_S_d0_1 h_S_) main_v2 main_c
  let main_v4 : FVec F S128x2048 .f32 := Host.absf main_arg2
  let main_cst_0 : FVec F S_ .f32 := constant S_ .f32 0x7F800000#32
  let main_v5 : FVec F S128x2048 .f32 := broadcastInDim S128x2048 ![] bcast_S_S128x2048 main_cst_0
  let main_v6 : IVec S128x2048 1 := cmpf .olt main_v4 main_v5
  let main_c_1 : IVec S_ 1 := constantI S_ 1 1#1
  let main_v7 : IVec S_ 1 := (fun x v => Host.reduce IntOp.andi x v reducesTo_S128x2048_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_arg8 main_arg9 main_arg10 main_arg11 main_v13 main_v16
-- ==== Kernel.lean ====
abbrev S50000x2048 : Shape := ⟨2, ![50000, 2048]⟩
abbrev S2x1600000 : Shape := ⟨2, ![2, 1600000]⟩
abbrev S128x2048 : Shape := ⟨2, ![128, 2048]⟩
abbrev S128 : Shape := ⟨1, ![128]⟩
abbrev S64x128 : Shape := ⟨2, ![64, 128]⟩
abbrev S64 : Shape := ⟨1, ![64]⟩
abbrev S32x64 : Shape := ⟨2, ![32, 64]⟩
abbrev S32 : Shape := ⟨1, ![32]⟩
abbrev S3x32 : Shape := ⟨2, ![3, 32]⟩
abbrev S3 : Shape := ⟨1, ![3]⟩
abbrev S1x1600000 : Shape := ⟨2, ![1, 1600000]⟩
abbrev S1600000 : Shape := ⟨1, ![1600000]⟩
abbrev S2048x128 : Shape := ⟨2, ![2048, 128]⟩
abbrev S50000x128 : Shape := ⟨2, ![50000, 128]⟩
abbrev S1000x2048 : Shape := ⟨2, ![1000, 2048]⟩
abbrev S1000x128 : Shape := ⟨2, ![1000, 128]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S128x64 : Shape := ⟨2, ![128, 64]⟩
abbrev S50000x64 : Shape := ⟨2, ![50000, 64]⟩
abbrev S1000x64 : Shape := ⟨2, ![1000, 64]⟩
abbrev S1x64 : Shape := ⟨2, ![1, 64]⟩
abbrev S1600000x64 : Shape := ⟨2, ![1600000, 64]⟩
abbrev S64x32 : Shape := ⟨2, ![64, 32]⟩
abbrev S32x3 : Shape := ⟨2, ![32, 3]⟩
abbrev S50000x3 : Shape := ⟨2, ![50000, 3]⟩
abbrev S1000x3 : Shape := ⟨2, ![1000, 3]⟩
abbrev S1000x32 : Shape := ⟨2, ![1000, 32]⟩
abbrev S1x32 : Shape := ⟨2, ![1, 32]⟩
abbrev S1x3 : Shape := ⟨2, ![1, 3]⟩

abbrev nBuf : Space → Nat
  | .hbm => 51
  | .vmem => 26
  | .smem => 0
  | _ => 0

abbrev bufTy : (tb : Table) → Fin (tcTables nBuf tb) → BufTy
  | .hbm, ⟨0, _⟩ => ⟨S50000x2048, .f32⟩
  | .hbm, ⟨1, _⟩ => ⟨S2x1600000, .i32⟩
  | .hbm, ⟨2, _⟩ => ⟨S128x2048, .f32⟩
  | .hbm, ⟨3, _⟩ => ⟨S128, .f32⟩
  | .hbm, ⟨4, _⟩ => ⟨S64x128, .f32⟩
  | .hbm, ⟨5, _⟩ => ⟨S64, .f32⟩
  | .hbm, ⟨6, _⟩ => ⟨S64x128, .f32⟩
  | .hbm, ⟨7, _⟩ => ⟨S32x64, .f32⟩
  | .hbm, ⟨8, _⟩ => ⟨S32, .f32⟩
  | .hbm, ⟨9, _⟩ => ⟨S32x64, .f32⟩
  | .hbm, ⟨10, _⟩ => ⟨S3x32, .f32⟩
  | .hbm, ⟨11, _⟩ => ⟨S3, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S2048x128, .f32⟩
  | .hbm, ⟨17, _⟩ => ⟨S50000x128, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .f32⟩
  | .hbm, ⟨27, _⟩ => ⟨S_, .f32⟩
  | .hbm, ⟨28, _⟩ => ⟨S50000x128, .f32⟩
  | .hbm, ⟨29, _⟩ => ⟨S1600000x1, .i32⟩
  | .hbm, ⟨30, _⟩ => ⟨S50000x128, .f32⟩
  | .hbm, ⟨31, _⟩ => ⟨S128x64, .f32⟩
  | .hbm, ⟨32, _⟩ => ⟨S128x64, .f32⟩
  | .hbm, ⟨33, _⟩ => ⟨S50000x64, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x64, .f32⟩
  | .hbm, ⟨43, _⟩ => ⟨S_, .f32⟩
  | .hbm, ⟨44, _⟩ => ⟨S50000x64, .f32⟩
  | .hbm, ⟨45, _⟩ => ⟨S1600000x1, .i32⟩
  | .hbm, ⟨46, _⟩ => ⟨S50000x64, .f32⟩
  | .hbm, ⟨47, _⟩ => ⟨S64x32, .f32⟩
  | .hbm, ⟨48, _⟩ => ⟨S64x32, .f32⟩
  | .hbm, ⟨49, _⟩ => ⟨S32x3, .f32⟩
  | .hbm, ⟨50, _⟩ => ⟨S50000x3, .f32⟩
  | .local _ .vmem, ⟨0, _⟩ => ⟨S1000x2048, .f32⟩
  | .local _ .vmem, ⟨1, _⟩ => ⟨S1000x2048, .f32⟩
  | .local _ .vmem, ⟨2, _⟩ => ⟨S2048x128, .f32⟩
  | .local _ .vmem, ⟨3, _⟩ => ⟨S128, .f32⟩
  | .local _ .vmem, ⟨4, _⟩ => ⟨S1000x128, .f32⟩
  | .local _ .vmem, ⟨5, _⟩ => ⟨S1000x128, .f32⟩
  | .local _ .vmem, ⟨6, _⟩ => ⟨S1000x128, .f32⟩
  | .local _ .vmem, ⟨7, _⟩ => ⟨S1000x128, .f32⟩
  | .local _ .vmem, ⟨8, _⟩ => ⟨S1000x128, .f32⟩
  | .local _ .vmem, ⟨9, _⟩ => ⟨S1000x128, .f32⟩
  | .local _ .vmem, ⟨10, _⟩ => ⟨S128x64, .f32⟩
  | .local _ .vmem, ⟨11, _⟩ => ⟨S128x64, .f32⟩
  | .local _ .vmem, ⟨12, _⟩ => ⟨S64, .f32⟩
  | .local _ .vmem, ⟨13, _⟩ => ⟨S1000x64, .f32⟩
  | .local _ .vmem, ⟨14, _⟩ => ⟨S1000x64, .f32⟩
  | .local _ .vmem, ⟨15, _⟩ => ⟨S1000x64, .f32⟩
  | .local _ .vmem, ⟨16, _⟩ => ⟨S1000x64, .f32⟩
  | .local _ .vmem, ⟨17, _⟩ => ⟨S1000x64, .f32⟩
  | .local _ .vmem, ⟨18, _⟩ => ⟨S1000x64, .f32⟩
  | .local _ .vmem, ⟨19, _⟩ => ⟨S64x32, .f32⟩
  | .local _ .vmem, ⟨20, _⟩ => ⟨S64x32, .f32⟩
  | .local _ .vmem, ⟨21, _⟩ => ⟨S32, .f32⟩
  | .local _ .vmem, ⟨22, _⟩ => ⟨S32x3, .f32⟩
  | .local _ .vmem, ⟨23, _⟩ => ⟨S3, .f32⟩
  | .local _ .vmem, ⟨24, _⟩ => ⟨S1000x3, .f32⟩
  | .local _ .vmem, ⟨25, _⟩ => ⟨S1000x3, .f32⟩
  | _, _ => ⟨S50000x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_1 : Ref sig .tc := ⟨.hbm, 34, rfl⟩
abbrev main_v19 : Ref sig .tc := ⟨.hbm, 35, rfl⟩
abbrev main_v20 : Ref sig .tc := ⟨.hbm, 36, rfl⟩
abbrev main_c_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg7_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem7_1 : DmaSem sig := 25

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32x3 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S3 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S1000x3 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S128x2048_S2048x128_1_0 : S128x2048.Transposes [1, 0] S2048x128
  inb_S1000x2048_S1000x2048_0_0 : ∀ a, (![0, 0] : Fin 2 → Nat) a + S1000x2048.size a ≤ S1000x2048.size a
  h_S1000x2048 : 0 < S1000x2048.numel
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128_S128_0 : ∀ a, (![0] : Fin 1 → Nat) a + S128.size a ≤ S128.size a
  h_S128 : 0 < S128.numel
  shapeCasts_S128_S1x128 : S128.ShapeCasts S1x128
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  transposes_S64x128_S128x64_1_0 : S64x128.Transposes [1, 0] S128x64
  shapeCasts_S1000x128_S1000x128 : S1000x128.ShapeCasts S1000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S1000x64 : S1x64.Broadcasts S1000x64
  inb_S1000x64_S1000x64_0_0 : ∀ a, (![0, 0] : Fin 2 → Nat) a + S1000x64.size a ≤ S1000x64.size a
  h_S1000x64 : 0 < S1000x64.numel
  bcast_S_S50000x64 : S_.BroadcastsInDim S50000x64 (![] : Fin 0 → Fin S50000x64.rank)
  transposes_S32x64_S64x32_1_0 : S32x64.Transposes [1, 0] S64x32
  transposes_S3x32_S32x3_1_0 : S3x32.Transposes [1, 0] S32x3
  shapeCasts_S1000x64_S1000x64 : S1000x64.ShapeCasts S1000x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S32_S32_0 : ∀ a, (![0] : Fin 1 → Nat) a + S32.size a ≤ S32.size a
  h_S32 : 0 < S32.numel
  shapeCasts_S32_S1x32 : S32.ShapeCasts S1x32
  broadcasts_S1x32_S1000x32 : S1x32.Broadcasts S1000x32
  inb_S32x3_S32x3_0_0 : ∀ a, (![0, 0] : Fin 2 → Nat) a + S32x3.size a ≤ S32x3.size a
  h_S32x3 : 0 < S32x3.numel
  shapeCasts_S32x3_S32x3 : S32x3.ShapeCasts S32x3
  inb_S3_S3_0 : ∀ a, (![0] : Fin 1 → Nat) a + S3.size a ≤ S3.size a
  h_S3 : 0 < S3.numel
  shapeCasts_S3_S1x3 : S3.ShapeCasts S1x3
  broadcasts_S1x3_S1000x3 : S1x3.Broadcasts S1000x3
  inb_S1000x3_S1000x3_0_0 : ∀ a, (![0, 0] : Fin 2 → Nat) a + S1000x3.size a ≤ S1000x3.size a
  h_S1000x3 : 0 < S1000x3.numel
  dot_S1000x2048_S2048x128_S1000x128_1_0_0_1_n_n_wf : DotDims.WF S1000x2048 S2048x128 S1000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S1000x128_S128x64_S1000x64_1_0_0_1_n_n_wf : DotDims.WF S1000x128 S128x64 S1000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S1000x64_S64x32_S1000x32_1_0_0_1_n_n_wf : DotDims.WF S1000x64 S64x32 S1000x32 [1] [0] [0] [1] [] []
  dot_S1000x32_S32x3_S1000x3_1_0_0_1_n_n_wf : DotDims.WF S1000x32 S32x3 S1000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x2048.size a ≤ S50000x2048.size a
  hwx0_0 : ∀ i : grid0.Coords, EltTy.bits .f32 = 32 ∨ (Rect.block (s := S50000x2048) S1000x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S2048x128.size a
  hwx0_1 : ∀ i : grid0.Coords, EltTy.bits .f32 = 32 ∨ (Rect.block (s := S2048x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x128.size a ≤ S50000x128.size a
  hwx0_3 : ∀ i : grid0.Coords, EltTy.bits .f32 = 32 ∨ (Rect.block (s := S50000x128) S1000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S50000x128.size a
  hwx1_0 : ∀ i : grid1.Coords, EltTy.bits .f32 = 32 ∨ (Rect.block (s := S50000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S50000x128.size a
  hwx1_1 : ∀ i : grid1.Coords, EltTy.bits .f32 = 32 ∨ (Rect.block (s := S50000x128) S1000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x64.size a ≤ S50000x64.size a
  hwx1_5 : ∀ i : grid1.Coords, EltTy.bits .f32 = 32 ∨ (Rect.block (s := S50000x64) S1000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x64.size a ≤ S50000x64.size a
  hwx2_0 : ∀ i : grid2.Coords, EltTy.bits .f32 = 32 ∨ (Rect.block (s := S50000x64) S1000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x64.size a ≤ S50000x64.size a
  hwx2_1 : ∀ i : grid2.Coords, EltTy.bits .f32 = 32 ∨ (Rect.block (s := S50000x64) S1000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x32.size a ≤ S64x32.size a
  hwx2_2 : ∀ i : grid2.Coords, EltTy.bits .f32 = 32 ∨ (Rect.block (s := S64x32) S64x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x32.size a ≤ S64x32.size a
  hwx2_3 : ∀ i : grid2.Coords, EltTy.bits .f32 = 32 ∨ (Rect.block (s := S64x32) S64x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32.size a ≤ S32.size a
  hwx2_4 : ∀ i : grid2.Coords, EltTy.bits .f32 = 32 ∨ (Rect.block (s := S32) S32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x3.size a ≤ S32x3.size a
  hwx2_5 : ∀ i : grid2.Coords, EltTy.bits .f32 = 32 ∨ (Rect.block (s := S32x3) S32x3.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S3.size a ≤ S3.size a
  hwx2_6 : ∀ i : grid2.Coords, EltTy.bits .f32 = 32 ∨ (Rect.block (s := S3) S3.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1000x3.size a ≤ S50000x3.size a
  hwx2_7 : ∀ i : grid2.Coords, EltTy.bits .f32 = 32 ∨ (Rect.block (s := S50000x3) S1000x3.size (cc2_transform_7 i) (hinb2_7 i)).WholeWords (EltTy.packing .f32)

variable [Facts₀]

def dot_S1000x2048_S2048x128_S1000x128_1_0_0_1_n_n : DotDims S1000x2048 S2048x128 S1000x128 where
  lhsContracting := [1]
  rhsContracting := [0]
  lhsNonContracting := [0]
  rhsNonContracting := [1]
  lhsBatch := []
  rhsBatch := []
  wf := dot_S1000x2048_S2048x128_S1000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S1000x64_S64x32_S1000x32_1_0_0_1_n_n : DotDims S1000x64 S64x32 S1000x32 where
  lhsContracting := [1]
  rhsContracting := [0]
  lhsNonContracting := [0]
  rhsNonContracting := [1]
  lhsBatch := []
  rhsBatch := []
  wf := dot_S1000x64_S64x32_S1000x32_1_0_0_1_n_n_wf
def dot_S1000x32_S32x3_S1000x3_1_0_0_1_n_n : DotDims S1000x32 S32x3 S1000x3 where
  lhsContracting := [1]
  rhsContracting := [0]
  lhsNonContracting := [0]
  rhsNonContracting := [1]
  lhsBatch := []
  rhsBatch := []
  wf := dot_S1000x32_S32x3_S1000x3_1_0_0_1_n_n_wf

abbrev win0_0 : Pipeline.Window sig grid0 :=
  Pipeline.Window.ofSpec (Memref.whole main_arg0) S1000x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2048x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v15) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S1000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v28) S1000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S1000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v29) S64x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S64x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v31) S32x3.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg11) S3.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v32) S1000x3.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x2048 : Shape := ⟨2, ![50000, 2048]⟩
abbrev S2x1600000 : Shape := ⟨2, ![2, 1600000]⟩
abbrev S128x2048 : Shape := ⟨2, ![128, 2048]⟩
abbrev S128 : Shape := ⟨1, ![128]⟩
abbrev S64x128 : Shape := ⟨2, ![64, 128]⟩
abbrev S64 : Shape := ⟨1, ![64]⟩
abbrev S32x64 : Shape := ⟨2, ![32, 64]⟩
abbrev S32 : Shape := ⟨1, ![32]⟩
abbrev S3x32 : Shape := ⟨2, ![3, 32]⟩
abbrev S3 : Shape := ⟨1, ![3]⟩
abbrev S2048x128 : Shape := ⟨2, ![2048, 128]⟩
abbrev S50000x128 : Shape := ⟨2, ![50000, 128]⟩
abbrev S1x128 : Shape := ⟨2, ![1, 128]⟩
abbrev S_ : Shape := ⟨0, ![]⟩
abbrev S1x1600000 : Shape := ⟨2, ![1, 1600000]⟩
abbrev S1600000 : Shape := ⟨1, ![1600000]⟩
abbrev S1600000x1 : Shape := ⟨2, ![1600000, 1]⟩
abbrev S1600000x128 : Shape := ⟨2, ![1600000, 128]⟩
abbrev S128x64 : Shape := ⟨2, ![128, 64]⟩
abbrev S50000x64 : Shape := ⟨2, ![50000, 64]⟩
abbrev S1x64 : Shape := ⟨2, ![1, 64]⟩
abbrev S1600000x64 : Shape := ⟨2, ![1600000, 64]⟩
abbrev S64x32 : Shape := ⟨2, ![64, 32]⟩
abbrev S50000x32 : Shape := ⟨2, ![50000, 32]⟩
abbrev S1x32 : Shape := ⟨2, ![1, 32]⟩
abbrev S32x3 : Shape := ⟨2, ![32, 3]⟩
abbrev S50000x3 : Shape := ⟨2, ![50000, 3]⟩
abbrev S1x3 : Shape := ⟨2, ![1, 3]⟩

abbrev nBuf : Space → Nat
  | .hbm => 93
  | .vmem => 0
  | .smem => 0
  | _ => 0

abbrev bufTy : (tb : Table) → Fin (tcTables nBuf tb) → BufTy
  | .hbm, ⟨0, _⟩ => ⟨S50000x2048, .f32⟩
  | .hbm, ⟨1, _⟩ => ⟨S2x1600000, .i32⟩
  | .hbm, ⟨2, _⟩ => ⟨S128x2048, .f32⟩
  | .hbm, ⟨3, _⟩ => ⟨S128, .f32⟩
  | .hbm, ⟨4, _⟩ => ⟨S64x128, .f32⟩
  | .hbm, ⟨5, _⟩ => ⟨S64, .f32⟩
  | .hbm, ⟨6, _⟩ => ⟨S64x128, .f32⟩
  | .hbm, ⟨7, _⟩ => ⟨S32x64, .f32⟩
  | .hbm, ⟨8, _⟩ => ⟨S32, .f32⟩
  | .hbm, ⟨9, _⟩ => ⟨S32x64, .f32⟩
  | .hbm, ⟨10, _⟩ => ⟨S3x32, .f32⟩
  | .hbm, ⟨11, _⟩ => ⟨S3, .f32⟩
  | .hbm, ⟨12, _⟩ => ⟨S2048x128, .f32⟩
  | .hbm, ⟨13, _⟩ => ⟨S50000x128, .f32⟩
  | .hbm, ⟨14, _⟩ => ⟨S1x128, .f32⟩
  | .hbm, ⟨15, _⟩ => ⟨S50000x128, .f32⟩
  | .hbm, ⟨16, _⟩ => ⟨S50000x128, .f32⟩
  | .hbm, ⟨17, _⟩ => ⟨S_, .f32⟩
  | .hbm, ⟨18, _⟩ => ⟨S50000x128, .f32⟩
  | .hbm, ⟨19, _⟩ => ⟨S50000x128, .i1⟩
  | .hbm, ⟨20, _⟩ => ⟨S_, .f32⟩
  | .hbm, ⟨21, _⟩ => ⟨S50000x128, .f32⟩
  | .hbm, ⟨22, _⟩ => ⟨S50000x128, .f32⟩
  | .hbm, ⟨23, _⟩ => ⟨S50000x128, .f32⟩
  | .hbm, ⟨24, _⟩ => ⟨S1x1600000, .i32⟩
  | .hbm, ⟨25, _⟩ => ⟨S1600000, .i32⟩
  | .hbm, ⟨26, _⟩ => ⟨S1x1600000, .i32⟩
  | .hbm, ⟨27, _⟩ => ⟨S1600000, .i32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S_, .f32⟩
  | .hbm, ⟨38, _⟩ => ⟨S50000x128, .f32⟩
  | .hbm, ⟨39, _⟩ => ⟨S1600000x1, .i32⟩
  | .hbm, ⟨40, _⟩ => ⟨S50000x128, .f32⟩
  | .hbm, ⟨41, _⟩ => ⟨S128x64, .f32⟩
  | .hbm, ⟨42, _⟩ => ⟨S50000x64, .f32⟩
  | .hbm, ⟨43, _⟩ => ⟨S1x64, .f32⟩
  | .hbm, ⟨44, _⟩ => ⟨S50000x64, .f32⟩
  | .hbm, ⟨45, _⟩ => ⟨S50000x64, .f32⟩
  | .hbm, ⟨46, _⟩ => ⟨S128x64, .f32⟩
  | .hbm, ⟨47, _⟩ => ⟨S50000x64, .f32⟩
  | .hbm, ⟨48, _⟩ => ⟨S50000x64, .f32⟩
  | .hbm, ⟨49, _⟩ => ⟨S_, .f32⟩
  | .hbm, ⟨50, _⟩ => ⟨S50000x64, .f32⟩
  | .hbm, ⟨51, _⟩ => ⟨S50000x64, .i1⟩
  | .hbm, ⟨52, _⟩ => ⟨S_, .f32⟩
  | .hbm, ⟨53, _⟩ => ⟨S50000x64, .f32⟩
  | .hbm, ⟨54, _⟩ => ⟨S50000x64, .f32⟩
  | .hbm, ⟨55, _⟩ => ⟨S50000x64, .f32⟩
  | .hbm, ⟨56, _⟩ => ⟨S1x1600000, .i32⟩
  | .hbm, ⟨57, _⟩ => ⟨S1600000, .i32⟩
  | .hbm, ⟨58, _⟩ => ⟨S1x1600000, .i32⟩
  | .hbm, ⟨59, _⟩ => ⟨S1600000, .i32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x64, .f32⟩
  | .hbm, ⟨69, _⟩ => ⟨S_, .f32⟩
  | .hbm, ⟨70, _⟩ => ⟨S50000x64, .f32⟩
  | .hbm, ⟨71, _⟩ => ⟨S1600000x1, .i32⟩
  | .hbm, ⟨72, _⟩ => ⟨S50000x64, .f32⟩
  | .hbm, ⟨73, _⟩ => ⟨S64x32, .f32⟩
  | .hbm, ⟨74, _⟩ => ⟨S50000x32, .f32⟩
  | .hbm, ⟨75, _⟩ => ⟨S1x32, .f32⟩
  | .hbm, ⟨76, _⟩ => ⟨S50000x32, .f32⟩
  | .hbm, ⟨77, _⟩ => ⟨S50000x32, .f32⟩
  | .hbm, ⟨78, _⟩ => ⟨S64x32, .f32⟩
  | .hbm, ⟨79, _⟩ => ⟨S50000x32, .f32⟩
  | .hbm, ⟨80, _⟩ => ⟨S50000x32, .f32⟩
  | .hbm, ⟨81, _⟩ => ⟨S_, .f32⟩
  | .hbm, ⟨82, _⟩ => ⟨S50000x32, .f32⟩
  | .hbm, ⟨83, _⟩ => ⟨S50000x32, .i1⟩
  | .hbm, ⟨84, _⟩ => ⟨S_, .f32⟩
  | .hbm, ⟨85, _⟩ => ⟨S50000x32, .f32⟩
  | .hbm, ⟨86, _⟩ => ⟨S50000x32, .f32⟩
  | .hbm, ⟨87, _⟩ => ⟨S50000x32, .f32⟩
  | .hbm, ⟨88, _⟩ => ⟨S32x3, .f32⟩
  | .hbm, ⟨89, _⟩ => ⟨S50000x3, .f32⟩
  | .hbm, ⟨90, _⟩ => ⟨S1x3, .f32⟩
  | .hbm, ⟨91, _⟩ => ⟨S50000x3, .f32⟩
  | .hbm, ⟨92, _⟩ => ⟨S50000x3, .f32⟩
  | _, _ => ⟨S50000x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_3 : Ref sig .tc := ⟨.hbm, 49, rfl⟩
abbrev main_v32 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_5 : Ref sig .tc := ⟨.hbm, 60, rfl⟩
abbrev main_v41 : Ref sig .tc := ⟨.hbm, 61, rfl⟩
abbrev main_v42 : Ref sig .tc := ⟨.hbm, 62, rfl⟩
abbrev main_c_6 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_7 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_8 : Ref sig .tc := ⟨.hbm, 81, rfl⟩
abbrev main_v59 : Ref sig .tc := ⟨.hbm, 82, rfl⟩
abbrev main_v60 : Ref sig .tc := ⟨.hbm, 83, rfl⟩
abbrev main_cst_9 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩

abbrev nD : Nat := 1
abbrev τ : Topo := Topo.v7x

variable {F : FTy → Type} [FloatOps F]

class Facts₀ : Prop where
  transposes_S128x2048_S2048x128_1_0 : S128x2048.Transposes [1, 0] S2048x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  transposes_S32x64_S64x32_1_0 : S32x64.Transposes [1, 0] S64x32
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  transposes_S3x32_S32x3_1_0 : S3x32.Transposes [1, 0] S32x3
  bcast_S3_S1x3_1 : S3.BroadcastsInDim S1x3 (![1] : Fin 1 → Fin S1x3.rank)
  bcast_S1x3_S50000x3_0_1 : S1x3.BroadcastsInDim S50000x3 (![0, 1] : Fin 2 → Fin S50000x3.rank)
  dot_S50000x2048_S2048x128_S50000x128_1_0_0_1_n_n_wf : DotDims.WF S50000x2048 S2048x128 S50000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x64_S50000x64_1_0_0_1_n_n_wf : DotDims.WF S50000x128 S128x64 S50000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S50000x64_S64x32_S50000x32_1_0_0_1_n_n_wf : DotDims.WF S50000x64 S64x32 S50000x32 [1] [0] [0] [1] [] []
  dot_S50000x32_S32x3_S50000x3_1_0_0_1_n_n_wf : DotDims.WF S50000x32 S32x3 S50000x3 [1] [0] [0] [1] [] []

variable [Facts₀]

def dot_S50000x2048_S2048x128_S50000x128_1_0_0_1_n_n : DotDims S50000x2048 S2048x128 S50000x128 where
  lhsContracting := [1]
  rhsContracting := [0]
  lhsNonContracting := [0]
  rhsNonContracting := [1]
  lhsBatch := []
  rhsBatch := []
  wf := dot_S50000x2048_S2048x128_S50000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def dot_S50000x32_S32x3_S50000x3_1_0_0_1_n_n : DotDims S50000x32 S32x3 S50000x3 where
  lhsContracting := [1]
  rhsContracting := [0]
  lhsNonContracting := [0]
  rhsNonContracting := [1]
  lhsBatch := []
  rhsBatch := []
  wf := dot_S50000x32_S32x3_S50000x3_1_0_0_1_n_n_wf

class Facts : Prop extends Facts₀ where

variable [Facts]
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.LibPlainDot.lean ====
/-
  The host's plain matrix product and a matrix transpose, read at an index, at the ideal values.
  A `dot_general` with the dimension numbers of an ordinary product — an [A, K] matrix times a [K, B] matrix,
  contracting the left operand's columns with the right operand's rows, no batch axis — is, at (p, e), the sum over k
  of L(p, k) · R(k, e), a sum indexed by `Fin K` with both operands read at indices written by coordinates. The
  transpose of an [A, B] matrix read at (b, a) is the matrix at (a, b).
-/
import Idealize.ShloMosaic.PureOps.Ideal.Laws
import Idealize.ShloMosaic.Lib.ValueIdx
import Idealize.ShloMosaic.Lib.Pipeline.Value
import proofs.«110777_j69630009803228_1_alg».proof.Proof.LibPlainMatmul

noncomputable section

namespace Cert.LibPlainDot

open Idealize.ShloMosaic Idealize.ShloMosaic.ValueIdx

/-- A plain [A, K] × [K, B] `dot_general` on the host, read at (p, e): Σ_k L(p, k) · R(k, e). -/
theorem dotGeneral_plain_apply (A K B : Nat) {φ₁ φ₂ : FTy} (prec : Option ContractPrecision) (sched : HostSchedule)
    (lhs : FVec Ideal ⟨2, ![A, K]⟩ φ₁) (rhs : FVec Ideal ⟨2, ![K, B]⟩ φ₂) (p : Fin A) (e : Fin B) :
    FloatOps.dotGeneral (DotDims.plain A K B) prec sched lhs rhs (ix2 p e) = ∑ k : Fin K, lhs (ix2 p k) * rhs (ix2 k e) := by
  rw [Ideal.dotGeneral_apply, ← Equiv.sum_comp (contrEquiv1 (DotDims.plain A K B) K rfl rfl).symm]
  refine Finset.sum_congr rfl fun k _ => ?_
  rw [plain_lhsIdx, plain_rhsIdx]

/-- The transpose of an [A, B] matrix, read at (b, a), is the matrix at (a, b). -/
theorem transpose_swap_apply {α : Type} (A B : Nat) (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun d => match d with
    | ⟨0, _⟩ => rfl
    | ⟨1, _⟩ => rfl)

end Cert.LibPlainDot

end
-- ==== Proof.Spec.lean ====
/-
  The network, layer by layer, as functions of whole arrays on the extended reals.

  A node's features are a row. A dense layer sends row p of X to the row  q ↦ Σ_k X(p,k)·W(k,q) + b(q); a graph
  convolution adds to that the same kind of product of a second array H with a second weight matrix, so its row is
  q ↦ (Σ_k A(p,k)·Wr(k,q) + Σ_k H(p,k)·Wo(k,q)) + b(q); the activation is the leaky rectifier, entry by entry. Nothing
  here mentions how the rows are tiled or where the arrays live: every row is computed from the same row of the inputs,
  which is what lets a row block of the result be computed from the same row block of the inputs.
-/
import Idealize.ShloMosaic.PureOps.Ideal.Laws
import Idealize.ShloMosaic.Lib.ValueIdx
import Idealize.ShloMosaic.Lib.ValueLayout
import Idealize.ShloMosaic.Lib.Pipeline.Value
import proofs.«110777_j69630009803228_1_alg».proof.Proof.LibPlainMatmul
import proofs.«110777_j69630009803228_1_alg».proof.Proof.LibPlainDot

noncomputable section

namespace Cert.Gnn

open Idealize.ShloMosaic Idealize.ShloMosaic.ValueIdx

/-- The leaky rectifier, spelled with the comparison and the selection both programs use: x where x ≥ 0, and the
    slope (the f32 nearest 0.01) times x elsewhere. -/
def lrelu (x : EReal) : EReal :=
  Scalar.select (FloatOps.cmpf (F := Ideal) (φ := .f32) .oge x (Ideal.ofBits .f32 0x00000000#32)) x
    (Ideal.ofBits .f32 0x3C23D70A#32 * x)

/-- The rectifier applied to every entry. -/
def act {s : Shape} (v : s.Idx → EReal) : s.Idx → EReal := fun i => lrelu (v i)

/-- A dense layer: entry (p, q) is Σ_k X(p,k)·W(k,q) + b(q). -/
def lin {A K B : ℕ} (X : (⟨2, ![A, K]⟩ : Shape).Idx → EReal) (W : (⟨2, ![K, B]⟩ : Shape).Idx → EReal)
    (b : (⟨1, ![B]⟩ : Shape).Idx → EReal) : (⟨2, ![A, B]⟩ : Shape).Idx → EReal :=
  fun i => (∑ k : Fin K, X (ix2 (i 0) k) * W (ix2 k (i 1))) + b (ix1 (i 1))

/-- A graph convolution's linear part: entry (p, q) is (Σ_k Ag(p,k)·Wr(k,q) + Σ_k H(p,k)·Wo(k,q)) + b(q), the
    aggregated neighbours through one matrix and the node's own row through another. -/
def conv {A K B : ℕ} (Ag H : (⟨2, ![A, K]⟩ : Shape).Idx → EReal) (Wr Wo : (⟨2, ![K, B]⟩ : Shape).Idx → EReal)
    (b : (⟨1, ![B]⟩ : Shape).Idx → EReal) : (⟨2, ![A, B]⟩ : Shape).Idx → EReal :=
  fun i => ((∑ k : Fin K, Ag (ix2 (i 0) k) * Wr (ix2 k (i 1))) + (∑ k : Fin K, H (ix2 (i 0) k) * Wo (ix2 k (i 1))))
    + b (ix1 (i 1))

theorem lin_apply {A K B : ℕ} (X : (⟨2, ![A, K]⟩ : Shape).Idx → EReal) (W : (⟨2, ![K, B]⟩ : Shape).Idx → EReal)
    (b : (⟨1, ![B]⟩ : Shape).Idx → EReal) (p : Fin A) (q : Fin B) :
    lin X W b (ix2 p q) = (∑ k : Fin K, X (ix2 p k) * W (ix2 k q)) + b (ix1 q) := rfl

theorem conv_apply {A K B : ℕ} (Ag H : (⟨2, ![A, K]⟩ : Shape).Idx → EReal) (Wr Wo : (⟨2, ![K, B]⟩ : Shape).Idx → EReal)
    (b : (⟨1, ![B]⟩ : Shape).Idx → EReal) (p : Fin A) (q : Fin B) :
    conv Ag H Wr Wo b (ix2 p q)
      = ((∑ k : Fin K, Ag (ix2 p k) * Wr (ix2 k q)) + (∑ k : Fin K, H (ix2 p k) * Wo (ix2 k q))) + b (ix1 q) := rfl

/-- Rows are independent: if X' is X with its rows re-indexed by r, the dense layer of X' is the dense layer of X at
    the re-indexed rows. -/
theorem lin_rows {A' A K B : ℕ} (X : (⟨2, ![A, K]⟩ : Shape).Idx → EReal) (X' : (⟨2, ![A', K]⟩ : Shape).Idx → EReal)
    (W : (⟨2, ![K, B]⟩ : Shape).Idx → EReal) (b : (⟨1, ![B]⟩ : Shape).Idx → EReal) (r : Fin A' → Fin A)
    (hX : ∀ p k, X' (ix2 p k) = X (ix2 (r p) k)) (p : Fin A') (q : Fin B) :
    lin X' W b (ix2 p q) = lin X W b (ix2 (r p) q) := by
  rw [lin_apply, lin_apply]; simp only [hX]

/-- The same for a convolution, with both arrays re-indexed alike. -/
theorem conv_rows {A' A K B : ℕ} (Ag H : (⟨2, ![A, K]⟩ : Shape).Idx → EReal) (Ag' H' : (⟨2, ![A', K]⟩ : Shape).Idx → EReal)
    (Wr Wo : (⟨2, ![K, B]⟩ : Shape).Idx → EReal) (b : (⟨1, ![B]⟩ : Shape).Idx → EReal) (r : Fin A' → Fin A)
    (hA : ∀ p k, Ag' (ix2 p k) = Ag (ix2 (r p) k)) (hH : ∀ p k, H' (ix2 p k) = H (ix2 (r p) k)) (p : Fin A') (q : Fin B) :
    conv Ag' H' Wr Wo b (ix2 p q) = conv Ag H Wr Wo b (ix2 (r p) q) := by
  rw [conv_apply, conv_apply]; simp only [hA, hH]

/-! ## The kernel's operations at an entry -/

/-- A kernel's product of a block with a weight matrix, both passed through a change of float format (the identity
    here) and the matrix through a cast to its own shape, into the zero accumulator: at (p, q) it is Σ_k X(p,k)·W(k,q). -/
theorem dense_apply {A K B : ℕ} (D : DotDims ⟨2, ![A, K]⟩ ⟨2, ![K, B]⟩ ⟨2, ![A, B]⟩) (hD : D = DotDims.plain A K B)
    (x : FVec Ideal ⟨2, ![A, K]⟩ .f32) (w : FVec Ideal ⟨2, ![K, B]⟩ .f32)
    (hsc : (⟨2, ![K, B]⟩ : Shape).ShapeCasts ⟨2, ![K, B]⟩) (hb : FTy.bf16.bits < FTy.f32.bits) (p : Fin A) (q : Fin B) :
    matmul D none (truncf .bf16 x hb) (truncf .bf16 (shapeCast ⟨2, ![K, B]⟩ w hsc) hb) (constant ⟨2, ![A, B]⟩ .f32 0x00000000#32) (ix2 p q)
      = ∑ k : Fin K, x (ix2 p k) * w (ix2 k q) := by
  subst hD
  rw [shapeCast_self]
  exact matmul_plain_zero_apply A K B none (truncf .bf16 x hb) (truncf .bf16 w hb) p q

/-- The same with the left operand too passed through a cast to its own shape. -/
theorem dense_cast_apply {A K B : ℕ} (D : DotDims ⟨2, ![A, K]⟩ ⟨2, ![K, B]⟩ ⟨2, ![A, B]⟩) (hD : D = DotDims.plain A K B)
    (x : FVec Ideal ⟨2, ![A, K]⟩ .f32) (w : FVec Ideal ⟨2, ![K, B]⟩ .f32)
    (hsa : (⟨2, ![A, K]⟩ : Shape).ShapeCasts ⟨2, ![A, K]⟩)
    (hsc : (⟨2, ![K, B]⟩ : Shape).ShapeCasts ⟨2, ![K, B]⟩) (hb : FTy.bf16.bits < FTy.f32.bits) (p : Fin A) (q : Fin B) :
    matmul D none (truncf .bf16 (shapeCast ⟨2, ![A, K]⟩ x hsa) hb) (truncf .bf16 (shapeCast ⟨2, ![K, B]⟩ w hsc) hb)
        (constant ⟨2, ![A, B]⟩ .f32 0x00000000#32) (ix2 p q)
      = ∑ k : Fin K, x (ix2 p k) * w (ix2 k q) := by
  rw [shapeCast_self x hsa]
  exact dense_apply D hD x w hsc hb p q

/-- A bias vector cast to a row and spread over the rows of a block reads, at (p, q), the vector at q. -/
theorem bias_block_apply {a b : ℕ} (v : (⟨1, ![b]⟩ : Shape).Idx → EReal) (h1 : (⟨1, ![b]⟩ : Shape).ShapeCasts ⟨2, ![1, b]⟩)
    (h2 : (⟨2, ![1, b]⟩ : Shape).Broadcasts ⟨2, ![a, b]⟩) (p : Fin a) (q : Fin b) :
    broadcastTo ⟨2, ![a, b]⟩ (shapeCast ⟨2, ![1, b]⟩ v h1) h2 (ix2 p q) = v (ix1 q) := by
  rw [broadcastTo_1b_ab_apply, shapeCast_a_1a_apply]

/-- The host's spelling of the same: the vector broadcast to a row along axis 1, the row broadcast to all rows. -/
theorem bias_host_apply {a b : ℕ} (v : (⟨1, ![b]⟩ : Shape).Idx → EReal)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (q : Fin b) :
    broadcastInDim ⟨2, ![a, b]⟩ ![0, 1] h2 (broadcastInDim ⟨2, ![1, b]⟩ ![1] h1 v) (ix2 p q) = v (ix1 q) := by
  rw [broadcastInDim_apply ![0, 1] h2 _ (ix2 p q) (ix2 (0 : Fin 1) q) (fun ax => by
    match ax with
    | ⟨0, _⟩ => rfl
    | ⟨1, _⟩ =>
      show q.val = if b = 1 then 0 else q.val
      split
      · have := q.isLt; omega
      · rfl)]
  exact broadcastInDim_apply ![1] h1 v (ix2 (0 : Fin 1) q) (ix1 q) (fun ax => by
    match ax with
    | ⟨0, _⟩ =>
      show q.val = if b = 1 then 0 else q.val
      split
      · have := q.isLt; omega
      · rfl)

/-! ## The blocks' computations as the layers -/

/-- A dense block: the product into the zero accumulator plus the bias row is the dense layer of the block. -/
theorem linBlock_apply {A K B : ℕ} (D : DotDims ⟨2, ![A, K]⟩ ⟨2, ![K, B]⟩ ⟨2, ![A, B]⟩) (hD : D = DotDims.plain A K B)
    (x : FVec Ideal ⟨2, ![A, K]⟩ .f32) (w : FVec Ideal ⟨2, ![K, B]⟩ .f32) (bv : FVec Ideal ⟨1, ![B]⟩ .f32)
    (hsc : (⟨2, ![K, B]⟩ : Shape).ShapeCasts ⟨2, ![K, B]⟩) (hb : FTy.bf16.bits < FTy.f32.bits)
    (h1 : (⟨1, ![B]⟩ : Shape).ShapeCasts ⟨2, ![1, B]⟩) (h2 : (⟨2, ![1, B]⟩ : Shape).Broadcasts ⟨2, ![A, B]⟩)
    (p : Fin A) (q : Fin B) :
    (addf (matmul D none (truncf .bf16 x hb) (truncf .bf16 (shapeCast ⟨2, ![K, B]⟩ w hsc) hb) (constant ⟨2, ![A, B]⟩ .f32 0x00000000#32))
      (broadcastTo ⟨2, ![A, B]⟩ (shapeCast ⟨2, ![1, B]⟩ bv h1) h2)) (ix2 p q) = lin x w bv (ix2 p q) := by
  rw [addf_apply, dense_apply D hD, bias_block_apply, lin_apply]

/-- A convolution block: two products into zero accumulators, added, plus the bias row. -/
theorem convBlock_apply {A K B : ℕ} (D : DotDims ⟨2, ![A, K]⟩ ⟨2, ![K, B]⟩ ⟨2, ![A, B]⟩) (hD : D = DotDims.plain A K B)
    (x0 x1 : FVec Ideal ⟨2, ![A, K]⟩ .f32) (w0 w1 : FVec Ideal ⟨2, ![K, B]⟩ .f32) (bv : FVec Ideal ⟨1, ![B]⟩ .f32)
    (hsa : (⟨2, ![A, K]⟩ : Shape).ShapeCasts ⟨2, ![A, K]⟩)
    (hsc : (⟨2, ![K, B]⟩ : Shape).ShapeCasts ⟨2, ![K, B]⟩) (hb : FTy.bf16.bits < FTy.f32.bits)
    (h1 : (⟨1, ![B]⟩ : Shape).ShapeCasts ⟨2, ![1, B]⟩) (h2 : (⟨2, ![1, B]⟩ : Shape).Broadcasts ⟨2, ![A, B]⟩)
    (p : Fin A) (q : Fin B) :
    (addf (addf
        (matmul D none (truncf .bf16 (shapeCast ⟨2, ![A, K]⟩ x0 hsa) hb) (truncf .bf16 (shapeCast ⟨2, ![K, B]⟩ w0 hsc) hb) (constant ⟨2, ![A, B]⟩ .f32 0x00000000#32))
        (matmul D none (truncf .bf16 (shapeCast ⟨2, ![A, K]⟩ x1 hsa) hb) (truncf .bf16 (shapeCast ⟨2, ![K, B]⟩ w1 hsc) hb) (constant ⟨2, ![A, B]⟩ .f32 0x00000000#32)))
      (broadcastTo ⟨2, ![A, B]⟩ (shapeCast ⟨2, ![1, B]⟩ bv h1) h2)) (ix2 p q) = conv x0 x1 w0 w1 bv (ix2 p q) := by
  rw [addf_apply, addf_apply, dense_cast_apply D hD, dense_cast_apply D hD, bias_block_apply, conv_apply]

/-- The kernel's leaky rectifier of a block — compare with the zero splat, select between the value and the slope
    splat times the value — is the rectifier entry by entry. -/
theorem leaky_block {s : Shape} (v : FVec Ideal s .f32) :
    select (cmpf .oge v (broadcast s (Scalar.ofBits (F := Ideal) .f32 0x00000000#32))) v
      (mulf (broadcast s (Scalar.ofBits (F := Ideal) .f32 0x3C23D70A#32)) v) = act v := rfl

/-- The host's spelling: the two scalars are constants broadcast to the shape. -/
theorem leaky_host {s : Shape} (v : FVec Ideal s .f32) (h : (⟨0, ![]⟩ : Shape).BroadcastsInDim s (![] : Fin 0 → Fin s.rank)) :
    select (cmpf .oge v (broadcastInDim s ![] h (constant (F := Ideal) ⟨0, ![]⟩ .f32 0x00000000#32))) v
      (mulf (broadcastInDim s ![] h (constant (F := Ideal) ⟨0, ![]⟩ .f32 0x3C23D70A#32)) v) = act v := by
  funext i
  show Scalar.select (FloatOps.cmpf .oge (v i) (broadcastInDim s ![] h (constant (F := Ideal) ⟨0, ![]⟩ .f32 0x00000000#32) i)) (v i)
    (broadcastInDim s ![] h (constant (F := Ideal) ⟨0, ![]⟩ .f32 0x3C23D70A#32) i * v i) = lrelu (v i)
  rw [broadcastInDim_apply ![] h _ i ix0 (fun a => a.elim0), broadcastInDim_apply ![] h _ i ix0 (fun a => a.elim0)]
  rfl

/-! ## The host's layers -/

/-- The host's dense layer before the activation — a plain dot_general plus the bias broadcast to every row — is the
    dense layer. -/
theorem pre_lin {A K B : ℕ} (D : DotDims ⟨2, ![A, K]⟩ ⟨2, ![K, B]⟩ ⟨2, ![A, B]⟩) (hD : D = DotDims.plain A K B)
    (x : FVec Ideal ⟨2, ![A, K]⟩ .f32) (w : FVec Ideal ⟨2, ![K, B]⟩ .f32) (bv : FVec Ideal ⟨1, ![B]⟩ .f32)
    (h1 : (⟨1, ![B]⟩ : Shape).BroadcastsInDim ⟨2, ![1, B]⟩ ![1])
    (h2 : (⟨2, ![1, B]⟩ : Shape).BroadcastsInDim ⟨2, ![A, B]⟩ ![0, 1]) :
    addf (Host.dotGeneral D none x w) (broadcastInDim ⟨2, ![A, B]⟩ ![0, 1] h2 (broadcastInDim ⟨2, ![1, B]⟩ ![1] h1 bv)) = lin x w bv := by
  subst hD
  funext j
  obtain ⟨p, q, rfl⟩ : ∃ (p : Fin A) (q : Fin B), j = ix2 p q := ⟨j 0, j 1, eq_ix2 j⟩
  rw [addf_apply, bias_host_apply, lin_apply]
  exact congrArg (· + bv (ix1 q)) (Cert.LibPlainDot.dotGeneral_plain_apply A K B none .single x w p q)

/-- The host's convolution before the activation adds the bias between the two products; addition on the extended
    reals is commutative and associative, so it is the convolution, which adds the bias last. -/
theorem pre_conv {A K B : ℕ} (D : DotDims ⟨2, ![A, K]⟩ ⟨2, ![K, B]⟩ ⟨2, ![A, B]⟩) (hD : D = DotDims.plain A K B)
    (ag h : FVec Ideal ⟨2, ![A, K]⟩ .f32) (wr wo : FVec Ideal ⟨2, ![K, B]⟩ .f32) (bv : FVec Ideal ⟨1, ![B]⟩ .f32)
    (h1 : (⟨1, ![B]⟩ : Shape).BroadcastsInDim ⟨2, ![1, B]⟩ ![1])
    (h2 : (⟨2, ![1, B]⟩ : Shape).BroadcastsInDim ⟨2, ![A, B]⟩ ![0, 1]) :
    addf (addf (Host.dotGeneral D none ag wr) (broadcastInDim ⟨2, ![A, B]⟩ ![0, 1] h2 (broadcastInDim ⟨2, ![1, B]⟩ ![1] h1 bv)))
      (Host.dotGeneral D none h wo) = conv ag h wr wo bv := by
  subst hD
  funext j
  obtain ⟨p, q, rfl⟩ : ∃ (p : Fin A) (q : Fin B), j = ix2 p q := ⟨j 0, j 1, eq_ix2 j⟩
  rw [addf_apply, addf_apply, bias_host_apply, conv_apply]
  show FloatOps.dotGeneral (DotDims.plain A K B) none .single ag wr (ix2 p q) + bv (ix1 q)
      + FloatOps.dotGeneral (DotDims.plain A K B) none .single h wo (ix2 p q) = _
  rw [Cert.LibPlainDot.dotGeneral_plain_apply, Cert.LibPlainDot.dotGeneral_plain_apply]
  exact add_right_comm _ _ _

/-! ## The whole network -/

/-- The network over abstract aggregations a₁, a₂ (sums over a node's incoming edges): a rectified dense layer, two
    rectified graph convolutions each fed the aggregation of the layer before, and a final dense layer. -/
def net {N : ℕ} (a₁ : ((⟨2, ![N, 128]⟩ : Shape).Idx → EReal) → (⟨2, ![N, 128]⟩ : Shape).Idx → EReal)
    (a₂ : ((⟨2, ![N, 64]⟩ : Shape).Idx → EReal) → (⟨2, ![N, 64]⟩ : Shape).Idx → EReal)
    (x : (⟨2, ![N, 2048]⟩ : Shape).Idx → EReal) (w1 : (⟨2, ![2048, 128]⟩ : Shape).Idx → EReal) (b1 : (⟨1, ![128]⟩ : Shape).Idx → EReal)
    (wr2 wo2 : (⟨2, ![128, 64]⟩ : Shape).Idx → EReal) (b2 : (⟨1, ![64]⟩ : Shape).Idx → EReal)
    (wr3 wo3 : (⟨2, ![64, 32]⟩ : Shape).Idx → EReal) (b3 : (⟨1, ![32]⟩ : Shape).Idx → EReal)
    (wp : (⟨2, ![32, 3]⟩ : Shape).Idx → EReal) (bp : (⟨1, ![3]⟩ : Shape).Idx → EReal) : (⟨2, ![N, 3]⟩ : Shape).Idx → EReal :=
  let h0 := act (lin x w1 b1)
  let h1 := act (conv (a₁ h0) h0 wr2 wo2 b2)
  let h2 := act (conv (a₂ h1) h1 wr3 wo3 b3)
  lin h2 wp bp

end Cert.Gnn

end
-- ==== Proof.Payload.lean ====
/-
  What each kernel body stores, as a layer of the network applied to the blocks it loads.

  The first body stores the rectified dense layer of its row block; the second the rectified graph convolution of its
  two row blocks; the third rectifies the convolution and passes the result through the final dense layer before
  storing. In each the weights and biases are loaded whole.
-/
import proofs.«110777_j69630009803228_1_alg».proof.Proof.Gen.KernelIdeal.Skeleton
import proofs.«110777_j69630009803228_1_alg».proof.Proof.Spec

noncomputable section

namespace Cert.Gnn

open Idealize.ShloMosaic Idealize.ShloMosaic.ValueIdx Cert.KernelIdeal Cert.KernelIdeal.Gen

theorem dot0_plain : dot_S1000x2048_S2048x128_S1000x128_1_0_0_1_n_n = DotDims.plain 1000 2048 128 := rfl
theorem dot1_plain : dot_S1000x128_S128x64_S1000x64_1_0_0_1_n_n = DotDims.plain 1000 128 64 := rfl
theorem dot2_plain : dot_S1000x64_S64x32_S1000x32_1_0_0_1_n_n = DotDims.plain 1000 64 32 := rfl
theorem dot3_plain : dot_S1000x32_S32x3_S1000x3_1_0_0_1_n_n = DotDims.plain 1000 32 3 := rfl

/-- The first body's stored value: the rectified dense layer of the loaded row block. -/
theorem pay0 (x0 : Vec Ideal S1000x2048 .f32) (x1 : Vec Ideal S2048x128 .f32) (x2 : Vec Ideal S128 .f32) :
    k0_pay1 (F := Ideal) x0 x1 x2 = act (lin x0 x1 x2) := by
  funext j
  obtain ⟨p, q, rfl⟩ : ∃ (p : Fin 1000) (q : Fin 128), j = ix2 p q := ⟨j 0, j 1, eq_ix2 j⟩
  exact congrArg lrelu (linBlock_apply _ dot0_plain x0 x1 x2 _ _ _ _ p q)

/-- The second body's stored value: the rectified convolution of the two loaded row blocks. -/
theorem pay1 (x0 x1 : Vec Ideal S1000x128 .f32) (x2 x3 : Vec Ideal S128x64 .f32) (x4 : Vec Ideal S64 .f32) :
    k1_pay1 (F := Ideal) x0 x1 x2 x3 x4 = act (conv x0 x1 x2 x3 x4) := by
  funext j
  obtain ⟨p, q, rfl⟩ : ∃ (p : Fin 1000) (q : Fin 64), j = ix2 p q := ⟨j 0, j 1, eq_ix2 j⟩
  exact congrArg lrelu (convBlock_apply _ dot1_plain x0 x1 x2 x3 x4 _ _ _ _ _ p q)

/-- The third body's stored value: the final dense layer of the rectified convolution of the two loaded row blocks. -/
theorem pay2 (x0 x1 : Vec Ideal S1000x64 .f32) (x2 x3 : Vec Ideal S64x32 .f32) (x4 : Vec Ideal S32 .f32)
    (x5 : Vec Ideal S32x3 .f32) (x6 : Vec Ideal S3 .f32) :
    k2_pay1 (F := Ideal) x0 x1 x2 x3 x4 x5 x6 = lin (act (conv x0 x1 x2 x3 x4)) x5 x6 := by
  have hact : ∀ j : S1000x32.Idx, act (conv x0 x1 x2 x3 x4) j = lrelu (conv x0 x1 x2 x3 x4 j) := fun _ => rfl
  funext j
  obtain ⟨p, q, rfl⟩ : ∃ (p : Fin 1000) (q : Fin 3), j = ix2 p q := ⟨j 0, j 1, eq_ix2 j⟩
  refine (linBlock_apply _ dot3_plain _ x5 x6 _ _ _ _ p q).trans ?_
  rw [lin_apply, lin_apply]
  refine congrArg (· + x6 (ix1 q)) (Finset.sum_congr rfl fun k _ => congrArg (· * x5 (ix2 k q)) ?_)
  exact congrArg lrelu (convBlock_apply _ dot2_plain x0 x1 x2 x3 x4 _ _ _ _ _ p k)

end Cert.Gnn

end
-- ==== Proof.Blocks0.lean ====
/-
  The first region, from blocks to the whole array.

  The grid has 50 points; point t takes rows 1000·t … 1000·t + 999 of the node features, the whole transposed weight
  matrix and the whole bias, and writes back rows 1000·t … 1000·t + 999 of the result. Since a row of the rectified
  dense layer depends only on the same row of the features, what point t writes back is block t of the layer applied
  to the whole arrays; the 50 blocks tile the 50000 rows, so after the region the result array IS that layer.
-/
import proofs.«110777_j69630009803228_1_alg».proof.Proof.Gen.KernelIdeal.Frame
import proofs.«110777_j69630009803228_1_alg».proof.Proof.Payload

set_option maxRecDepth 16384

noncomputable section

namespace Cert.Gnn.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the row-blocked windows sit at block row t, column block 0; the weight and
    bias windows at block 0 throughout. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

theorem lt50 (t : Fin cfg0.N) : t.val < 50 := by
  have h : t.val < grid0.N := t.isLt
  rw [N_0] at h; exact h

/-- Row p of block t is row 1000·t + p of the array. -/
def row (t : Fin cfg0.N) (p : Fin 1000) : Fin 50000 := ⟨t.val * 1000 + p.val, by have := lt50 t; have := p.isLt; omega⟩

/-- The feature block at point t, read at (p, k): the features at (1000·t + p, k). -/
theorem iblk_x (c : Dev nD) (t : Fin cfg0.N) (p : Fin 1000) (k : Fin 2048) :
    iblk0 V c 0 t (ix2 p k) = V c main_arg0 (ix2 (row t p) k) := by
  obtain ⟨e0, e1, -⟩ := idx_facts t
  show V c main_arg0 (((cfg0.win 0).blk t).view.emb (ix2 p k)) = _
  refine congrArg (V c main_arg0) (funext fun a => Fin.ext ?_)
  match a with
  | ⟨0, _⟩ => show win0_0.index t (0 : Fin 2) * 1000 + 1 * p.val = t.val * 1000 + p.val; omega
  | ⟨1, _⟩ => show win0_0.index t (1 : Fin 2) * 2048 + 1 * k.val = k.val; omega

/-- The weight window's block is the whole transposed weight matrix at every point. -/
theorem iblk_w (c : Dev nD) (t : Fin cfg0.N) : iblk0 V c 1 t = V c main_v4 := by
  obtain ⟨-, -, e2, e3, -⟩ := idx_facts t
  funext y
  show V c main_v4 (((cfg0.win 1).blk t).view.emb y) = _
  refine congrArg (V c main_v4) (funext fun a => Fin.ext ?_)
  match a with
  | ⟨0, _⟩ => show win0_1.index t (0 : Fin 2) * 2048 + 1 * (y 0).val = (y 0).val; omega
  | ⟨1, _⟩ => show win0_1.index t (1 : Fin 2) * 128 + 1 * (y 1).val = (y 1).val; omega

/-- The bias window's block is the whole bias at every point. -/
theorem iblk_b (c : Dev nD) (t : Fin cfg0.N) : iblk0 V c 2 t = V c main_arg3 := by
  obtain ⟨-, -, -, -, e4, -⟩ := idx_facts t
  funext y
  show V c main_arg3 (((cfg0.win 2).blk t).view.emb y) = _
  refine congrArg (V c main_arg3) (funext fun a => Fin.ext ?_)
  match a with
  | ⟨0, _⟩ => show win0_2.index t (0 : Fin 1) * 128 + 1 * (y 0).val = (y 0).val; omega

/-- Entry (p, q) of the result block at point t sits at (1000·t + p, q) of the result array. -/
theorem emb_out (t : Fin cfg0.N) (p : Fin 1000) (q : Fin 128) :
    ((cfg0.win 3).blk t).view.emb (ix2 p q) = (ix2 (row t p) q : S50000x128.Idx) := by
  obtain ⟨-, -, -, -, -, e5, e6⟩ := idx_facts t
  refine funext fun a => Fin.ext ?_
  match a with
  | ⟨0, _⟩ => show win0_3.index t (0 : Fin 2) * 1000 + 1 * p.val = t.val * 1000 + p.val; omega
  | ⟨1, _⟩ => show win0_3.index t (1 : Fin 2) * 128 + 1 * q.val = q.val; omega

/-- The first hidden layer as a function of the arrays the region finds. -/
def H0 (c : Dev nD) : S50000x128.Idx → EReal :=
  act (lin (A := 50000) (K := 2048) (B := 128) (V c main_arg0) (V c main_v4) (V c main_arg3))

/-- What point t writes back is block t of the layer of the whole arrays. -/
theorem flushed_eq (c : Dev nD) (t : Fin cfg0.N) :
    (dat0 V c).flushed 3 t = ((cfg0.win 3).blk t).view.read (Elt Ideal) (H0 V c) := by
  show (cfg0.win 3).cut (grid0.coords t) ((dat0 V c).after 3 t) = _
  rw [after0_3]
  unfold out0_3
  rw [View.canon_unit_zero hz2]
  simp only [View.ld_unit_zero (S := S1000x2048) hz2, View.ld_unit_zero (S := S2048x128) hz2, View.ld_unit_zero (S := S128) hz1]
  rw [pay0, iblk_w, iblk_b]
  funext j
  obtain ⟨p, q, rfl⟩ : ∃ (p : Fin 1000) (q : Fin 128), j = ix2 p q := ⟨j 0, j 1, eq_ix2 j⟩
  show lrelu (lin (iblk0 V c 0 t) (V c main_v4) (V c main_arg3) (ix2 p q)) = H0 V c (((cfg0.win 3).blk t).view.emb (ix2 p q))
  rw [emb_out, lin_rows (V c main_arg0) (iblk0 V c 0 t) (V c main_v4) (V c main_arg3) (row t) (iblk_x V c t) p q]
  rfl

/-- An index of the result array is in point t's block iff each coordinate is in the block's range on its axis. -/
theorem mem_blk (t : Fin cfg0.N) (i : S50000x128.Idx) :
    i ∈ ((cfg0.win 3).blk t).view.set ↔ ∀ a : Fin 2, win0_3.index t a * S1000x128.size a ≤ (i a).val ∧ (i a).val < win0_3.index t a * S1000x128.size a + S1000x128.size a := by
  show i ∈ ((View.whole main_v5).slice (win0_3.rect t)).set ↔ _
  rw [View.set_slice_whole, Rect.mem_set_unit]
  exact Iff.rfl

/-- Every row lies in the block of the point that is its number divided by 1000. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  let t : Fin cfg0.N := ⟨(i 0).val / 1000, by show (i 0).val / 1000 < grid0.N; rw [N_0]; omega⟩
  obtain ⟨-, -, -, -, -, e5, e6⟩ := idx_facts t
  have ht : t.val = (i 0).val / 1000 := rfl
  refine ⟨t, flush0_3 t, ?_⟩
  rw [mem_blk]
  intro a
  match a with
  | ⟨0, _⟩ => show win0_3.index t (0 : Fin 2) * 1000 ≤ (i 0).val ∧ (i 0).val < win0_3.index t (0 : Fin 2) * 1000 + 1000; omega
  | ⟨1, _⟩ => show win0_3.index t (1 : Fin 2) * 128 ≤ (i 1).val ∧ (i 1).val < win0_3.index t (1 : Fin 2) * 128 + 128; omega

/-- After the region the result array is the first hidden layer of the arrays the region found. -/
theorem final (c : Dev nD) : (dat0 V c).arrAt 3 cfg0.N = H0 V c :=
  (dat0 V c).arrAt_eq_of_cover 3 (H0 V c) (fun t _ => flushed_eq V c t) cover

end Cert.Gnn.Region0

end
-- ==== Proof.Blocks1.lean ====
/-
  The second region, from blocks to the whole array.

  Point t of the 50 takes rows 1000·t … 1000·t + 999 of the aggregated neighbours and of the first hidden layer, the
  two transposed weight matrices and the bias whole, and writes back the same rows of the result. A row of the
  rectified graph convolution depends only on the same row of its two inputs, so what point t writes back is block t
  of the convolution of the whole arrays, and the 50 blocks tile the rows.
-/
import proofs.«110777_j69630009803228_1_alg».proof.Proof.Gen.KernelIdeal.Frame
import proofs.«110777_j69630009803228_1_alg».proof.Proof.Payload

set_option maxRecDepth 16384

noncomputable section

namespace Cert.Gnn.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the row-blocked windows sit at block row t, column block 0; the weight and
    bias windows at block 0 throughout. -/
theorem idx_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 1) = 0
    ∧ win1_5.index t (0 : Fin 2) = t.val
    ∧ win1_5.index t (1 : Fin 2) = 0 :=
  (by decide +kernel : ∀ t : Fin grid1.N, _)

theorem lt50 (t : Fin cfg1.N) : t.val < 50 := by
  have h : t.val < grid1.N := t.isLt
  rw [N_1] at h; exact h

/-- Row p of block t is row 1000·t + p of the array. -/
def row (t : Fin cfg1.N) (p : Fin 1000) : Fin 50000 := ⟨t.val * 1000 + p.val, by have := lt50 t; have := p.isLt; omega⟩

/-- Row block t of window 0's array, read at (p, k): the array at (1000·t + p, k). -/
theorem iblk_0 (c : Dev nD) (t : Fin cfg1.N) (p : Fin 1000) (k : Fin 128) :
    iblk1 V c 0 t (ix2 p k) = V c main_v15 (ix2 (row t p) k) := by
  obtain ⟨e0, e1, -⟩ := idx_facts t
  show V c main_v15 (((cfg1.win 0).blk t).view.emb (ix2 p k)) = _
  refine congrArg (V c main_v15) (funext fun a => Fin.ext ?_)
  match a with
  | ⟨0, _⟩ => show win1_0.index t (0 : Fin 2) * 1000 + 1 * p.val = t.val * 1000 + p.val; omega
  | ⟨1, _⟩ => show win1_0.index t (1 : Fin 2) * 128 + 1 * k.val = k.val; omega

/-- Row block t of window 1's array, read at (p, k): the array at (1000·t + p, k). -/
theorem iblk_1 (c : Dev nD) (t : Fin cfg1.N) (p : Fin 1000) (k : Fin 128) :
    iblk1 V c 1 t (ix2 p k) = V c main_v5 (ix2 (row t p) k) := by
  obtain ⟨-, -, e0, e1, -⟩ := idx_facts t
  show V c main_v5 (((cfg1.win 1).blk t).view.emb (ix2 p k)) = _
  refine congrArg (V c main_v5) (funext fun a => Fin.ext ?_)
  match a with
  | ⟨0, _⟩ => show win1_1.index t (0 : Fin 2) * 1000 + 1 * p.val = t.val * 1000 + p.val; omega
  | ⟨1, _⟩ => show win1_1.index t (1 : Fin 2) * 128 + 1 * k.val = k.val; omega

/-- Window 2's block is its whole array at every point. -/
theorem iblk_2 (c : Dev nD) (t : Fin cfg1.N) : iblk1 V c 2 t = V c main_v16 := by
  obtain ⟨-, -, -, -, e0, e1, -⟩ := idx_facts t
  funext y
  show V c main_v16 (((cfg1.win 2).blk t).view.emb y) = _
  refine congrArg (V c main_v16) (funext fun a => Fin.ext ?_)
  match a with
  | ⟨0, _⟩ => show win1_2.index t (0 : Fin 2) * 128 + 1 * (y 0).val = (y 0).val; omega
  | ⟨1, _⟩ => show win1_2.index t (1 : Fin 2) * 64 + 1 * (y 1).val = (y 1).val; omega

/-- Window 3's block is its whole array at every point. -/
theorem iblk_3 (c : Dev nD) (t : Fin cfg1.N) : iblk1 V c 3 t = V c main_v17 := by
  obtain ⟨-, -, -, -, -, -, e0, e1, -⟩ := idx_facts t
  funext y
  show V c main_v17 (((cfg1.win 3).blk t).view.emb y) = _
  refine congrArg (V c main_v17) (funext fun a => Fin.ext ?_)
  match a with
  | ⟨0, _⟩ => show win1_3.index t (0 : Fin 2) * 128 + 1 * (y 0).val = (y 0).val; omega
  | ⟨1, _⟩ => show win1_3.index t (1 : Fin 2) * 64 + 1 * (y 1).val = (y 1).val; omega

/-- Window 4's block is its whole array at every point. -/
theorem iblk_4 (c : Dev nD) (t : Fin cfg1.N) : iblk1 V c 4 t = V c main_arg5 := by
  obtain ⟨-, -, -, -, -, -, -, -, e0, -⟩ := idx_facts t
  funext y
  show V c main_arg5 (((cfg1.win 4).blk t).view.emb y) = _
  refine congrArg (V c main_arg5) (funext fun a => Fin.ext ?_)
  match a with
  | ⟨0, _⟩ => show win1_4.index t (0 : Fin 1) * 64 + 1 * (y 0).val = (y 0).val; omega

/-- Entry (p, q) of the result block at point t sits at (1000·t + p, q) of the result array. -/
theorem emb_out (t : Fin cfg1.N) (p : Fin 1000) (q : Fin 64) :
    ((cfg1.win 5).blk t).view.emb (ix2 p q) = (ix2 (row t p) q : S50000x64.Idx) := by
  obtain ⟨-, -, -, -, -, -, -, -, -, e0, e1⟩ := idx_facts t
  refine funext fun a => Fin.ext ?_
  match a with
  | ⟨0, _⟩ => show win1_5.index t (0 : Fin 2) * 1000 + 1 * p.val = t.val * 1000 + p.val; omega
  | ⟨1, _⟩ => show win1_5.index t (1 : Fin 2) * 64 + 1 * q.val = q.val; omega

/-- The second hidden layer as a function of the arrays the region finds. -/
def H1 (c : Dev nD) : S50000x64.Idx → EReal :=
  act (conv (A := 50000) (K := 128) (B := 64) (V c main_v15) (V c main_v5) (V c main_v16) (V c main_v17) (V c main_arg5))

/-- What point t writes back is block t of the layer of the whole arrays. -/
theorem flushed_eq (c : Dev nD) (t : Fin cfg1.N) :
    (dat1 V c).flushed 5 t = ((cfg1.win 5).blk t).view.read (Elt Ideal) (H1 V c) := by
  show (cfg1.win 5).cut (grid1.coords t) ((dat1 V c).after 5 t) = _
  rw [after1_5]
  unfold out1_5
  rw [View.canon_unit_zero hz2]
  simp only [View.ld_unit_zero (S := S1000x128) hz2, View.ld_unit_zero (S := S128x64) hz2, View.ld_unit_zero (S := S64) hz1]
  rw [pay1, iblk_2, iblk_3, iblk_4]
  funext j
  obtain ⟨p, q, rfl⟩ : ∃ (p : Fin 1000) (q : Fin 64), j = ix2 p q := ⟨j 0, j 1, eq_ix2 j⟩
  show lrelu (conv (iblk1 V c 0 t) (iblk1 V c 1 t) (V c main_v16) (V c main_v17) (V c main_arg5) (ix2 p q)) = H1 V c (((cfg1.win 5).blk t).view.emb (ix2 p q))
  rw [emb_out, conv_rows (V c main_v15) (V c main_v5) (iblk1 V c 0 t) (iblk1 V c 1 t) (V c main_v16) (V c main_v17) (V c main_arg5) (row t) (iblk_0 V c t) (iblk_1 V c t) p q]
  rfl

/-- An index of the result array is in point t's block iff each coordinate is in the block's range on its axis. -/
theorem mem_blk (t : Fin cfg1.N) (i : S50000x64.Idx) :
    i ∈ ((cfg1.win 5).blk t).view.set ↔ ∀ a : Fin 2, win1_5.index t a * S1000x64.size a ≤ (i a).val ∧ (i a).val < win1_5.index t a * S1000x64.size a + S1000x64.size a := by
  show i ∈ ((View.whole main_v18).slice (win1_5.rect t)).set ↔ _
  rw [View.set_slice_whole, Rect.mem_set_unit]
  exact Iff.rfl

/-- Every row lies in the block of the point that is its number divided by 1000. -/
theorem cover (i : S50000x64.Idx) : ∃ t : Fin cfg1.N, (cfg1.win 5).flush t = true ∧ i ∈ ((cfg1.win 5).blk t).view.set := by
  have hi0 : (i 0).val < 50000 := (i 0).isLt
  have hi1 : (i 1).val < 64 := (i 1).isLt
  let t : Fin cfg1.N := ⟨(i 0).val / 1000, by show (i 0).val / 1000 < grid1.N; rw [N_1]; omega⟩
  obtain ⟨-, -, -, -, -, -, -, -, -, e0, e1⟩ := idx_facts t
  have ht : t.val = (i 0).val / 1000 := rfl
  refine ⟨t, flush1_5 t, ?_⟩
  rw [mem_blk]
  intro a
  match a with
  | ⟨0, _⟩ => show win1_5.index t (0 : Fin 2) * 1000 ≤ (i 0).val ∧ (i 0).val < win1_5.index t (0 : Fin 2) * 1000 + 1000; omega
  | ⟨1, _⟩ => show win1_5.index t (1 : Fin 2) * 64 ≤ (i 1).val ∧ (i 1).val < win1_5.index t (1 : Fin 2) * 64 + 64; omega

/-- After the region the result array is that layer of the arrays the region found. -/
theorem final (c : Dev nD) : (dat1 V c).arrAt 5 cfg1.N = H1 V c :=
  (dat1 V c).arrAt_eq_of_cover 5 (H1 V c) (fun t _ => flushed_eq V c t) cover

end Cert.Gnn.Region1

end
-- ==== Proof.Blocks2.lean ====
/-
  The third region, from blocks to the whole array.

  Point t of the 50 takes rows 1000·t … 1000·t + 999 of the second aggregation and of the second hidden layer, and
  every weight matrix and bias whole; it rectifies the graph convolution of its rows and sends them through the final
  dense layer, writing back the same rows of the positions. Both steps act row by row, so what point t writes back is
  block t of the two layers applied to the whole arrays, and the 50 blocks tile the rows.
-/
import proofs.«110777_j69630009803228_1_alg».proof.Proof.Gen.KernelIdeal.Frame
import proofs.«110777_j69630009803228_1_alg».proof.Proof.Payload

set_option maxRecDepth 16384

noncomputable section

namespace Cert.Gnn.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the row-blocked windows sit at block row t, column block 0; the weight and
    bias windows at block 0 throughout. -/
theorem idx_facts : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 1) = 0
    ∧ win2_5.index t (0 : Fin 2) = 0
    ∧ win2_5.index t (1 : Fin 2) = 0
    ∧ win2_6.index t (0 : Fin 1) = 0
    ∧ win2_7.index t (0 : Fin 2) = t.val
    ∧ win2_7.index t (1 : Fin 2) = 0 :=
  (by decide +kernel : ∀ t : Fin grid2.N, _)

theorem lt50 (t : Fin cfg2.N) : t.val < 50 := by
  have h : t.val < grid2.N := t.isLt
  rw [N_2] at h; exact h

/-- Row p of block t is row 1000·t + p of the array. -/
def row (t : Fin cfg2.N) (p : Fin 1000) : Fin 50000 := ⟨t.val * 1000 + p.val, by have := lt50 t; have := p.isLt; omega⟩

/-- Row block t of window 0's array, read at (p, k): the array at (1000·t + p, k). -/
theorem iblk_0 (c : Dev nD) (t : Fin cfg2.N) (p : Fin 1000) (k : Fin 64) :
    iblk2 V c 0 t (ix2 p k) = V c main_v28 (ix2 (row t p) k) := by
  obtain ⟨e0, e1, -⟩ := idx_facts t
  show V c main_v28 (((cfg2.win 0).blk t).view.emb (ix2 p k)) = _
  refine congrArg (V c main_v28) (funext fun a => Fin.ext ?_)
  match a with
  | ⟨0, _⟩ => show win2_0.index t (0 : Fin 2) * 1000 + 1 * p.val = t.val * 1000 + p.val; omega
  | ⟨1, _⟩ => show win2_0.index t (1 : Fin 2) * 64 + 1 * k.val = k.val; omega

/-- Row block t of window 1's array, read at (p, k): the array at (1000·t + p, k). -/
theorem iblk_1 (c : Dev nD) (t : Fin cfg2.N) (p : Fin 1000) (k : Fin 64) :
    iblk2 V c 1 t (ix2 p k) = V c main_v18 (ix2 (row t p) k) := by
  obtain ⟨-, -, e0, e1, -⟩ := idx_facts t
  show V c main_v18 (((cfg2.win 1).blk t).view.emb (ix2 p k)) = _
  refine congrArg (V c main_v18) (funext fun a => Fin.ext ?_)
  match a with
  | ⟨0, _⟩ => show win2_1.index t (0 : Fin 2) * 1000 + 1 * p.val = t.val * 1000 + p.val; omega
  | ⟨1, _⟩ => show win2_1.index t (1 : Fin 2) * 64 + 1 * k.val = k.val; omega

/-- Window 2's block is its whole array at every point. -/
theorem iblk_2 (c : Dev nD) (t : Fin cfg2.N) : iblk2 V c 2 t = V c main_v29 := by
  obtain ⟨-, -, -, -, e0, e1, -⟩ := idx_facts t
  funext y
  show V c main_v29 (((cfg2.win 2).blk t).view.emb y) = _
  refine congrArg (V c main_v29) (funext fun a => Fin.ext ?_)
  match a with
  | ⟨0, _⟩ => show win2_2.index t (0 : Fin 2) * 64 + 1 * (y 0).val = (y 0).val; omega
  | ⟨1, _⟩ => show win2_2.index t (1 : Fin 2) * 32 + 1 * (y 1).val = (y 1).val; omega

/-- Window 3's block is its whole array at every point. -/
theorem iblk_3 (c : Dev nD) (t : Fin cfg2.N) : iblk2 V c 3 t = V c main_v30 := by
  obtain ⟨-, -, -, -, -, -, e0, e1, -⟩ := idx_facts t
  funext y
  show V c main_v30 (((cfg2.win 3).blk t).view.emb y) = _
  refine congrArg (V c main_v30) (funext fun a => Fin.ext ?_)
  match a with
  | ⟨0, _⟩ => show win2_3.index t (0 : Fin 2) * 64 + 1 * (y 0).val = (y 0).val; omega
  | ⟨1, _⟩ => show win2_3.index t (1 : Fin 2) * 32 + 1 * (y 1).val = (y 1).val; omega

/-- Window 4's block is its whole array at every point. -/
theorem iblk_4 (c : Dev nD) (t : Fin cfg2.N) : iblk2 V c 4 t = V c main_arg8 := by
  obtain ⟨-, -, -, -, -, -, -, -, e0, -⟩ := idx_facts t
  funext y
  show V c main_arg8 (((cfg2.win 4).blk t).view.emb y) = _
  refine congrArg (V c main_arg8) (funext fun a => Fin.ext ?_)
  match a with
  | ⟨0, _⟩ => show win2_4.index t (0 : Fin 1) * 32 + 1 * (y 0).val = (y 0).val; omega

/-- Window 5's block is its whole array at every point. -/
theorem iblk_5 (c : Dev nD) (t : Fin cfg2.N) : iblk2 V c 5 t = V c main_v31 := by
  obtain ⟨-, -, -, -, -, -, -, -, -, e0, e1, -⟩ := idx_facts t
  funext y
  show V c main_v31 (((cfg2.win 5).blk t).view.emb y) = _
  refine congrArg (V c main_v31) (funext fun a => Fin.ext ?_)
  match a with
  | ⟨0, _⟩ => show win2_5.index t (0 : Fin 2) * 32 + 1 * (y 0).val = (y 0).val; omega
  | ⟨1, _⟩ => show win2_5.index t (1 : Fin 2) * 3 + 1 * (y 1).val = (y 1).val; omega

/-- Window 6's block is its whole array at every point. -/
theorem iblk_6 (c : Dev nD) (t : Fin cfg2.N) : iblk2 V c 6 t = V c main_arg11 := by
  obtain ⟨-, -, -, -, -, -, -, -, -, -, -, e0, -⟩ := idx_facts t
  funext y
  show V c main_arg11 (((cfg2.win 6).blk t).view.emb y) = _
  refine congrArg (V c main_arg11) (funext fun a => Fin.ext ?_)
  match a with
  | ⟨0, _⟩ => show win2_6.index t (0 : Fin 1) * 3 + 1 * (y 0).val = (y 0).val; omega

/-- Entry (p, q) of the result block at point t sits at (1000·t + p, q) of the result array. -/
theorem emb_out (t : Fin cfg2.N) (p : Fin 1000) (q : Fin 3) :
    ((cfg2.win 7).blk t).view.emb (ix2 p q) = (ix2 (row t p) q : S50000x3.Idx) := by
  obtain ⟨-, -, -, -, -, -, -, -, -, -, -, -, e0, e1⟩ := idx_facts t
  refine funext fun a => Fin.ext ?_
  match a with
  | ⟨0, _⟩ => show win2_7.index t (0 : Fin 2) * 1000 + 1 * p.val = t.val * 1000 + p.val; omega
  | ⟨1, _⟩ => show win2_7.index t (1 : Fin 2) * 3 + 1 * q.val = q.val; omega

/-- The positions as a function of the arrays the region finds. -/
def H2 (c : Dev nD) : S50000x3.Idx → EReal :=
  lin (A := 50000) (K := 32) (B := 3)
    (act (conv (A := 50000) (K := 64) (B := 32) (V c main_v28) (V c main_v18) (V c main_v29) (V c main_v30) (V c main_arg8)))
    (V c main_v31) (V c main_arg11)

/-- What point t writes back is block t of the layer of the whole arrays. -/
theorem flushed_eq (c : Dev nD) (t : Fin cfg2.N) :
    (dat2 V c).flushed 7 t = ((cfg2.win 7).blk t).view.read (Elt Ideal) (H2 V c) := by
  show (cfg2.win 7).cut (grid2.coords t) ((dat2 V c).after 7 t) = _
  rw [after2_7]
  unfold out2_7
  rw [View.canon_unit_zero hz2]
  simp only [View.ld_unit_zero (S := S1000x64) hz2, View.ld_unit_zero (S := S64x32) hz2, View.ld_unit_zero (S := S32) hz1, View.ld_unit_zero (S := S32x3) hz2, View.ld_unit_zero (S := S3) hz1]
  rw [pay2, iblk_2, iblk_3, iblk_4, iblk_5, iblk_6]
  funext j
  obtain ⟨p, q, rfl⟩ : ∃ (p : Fin 1000) (q : Fin 3), j = ix2 p q := ⟨j 0, j 1, eq_ix2 j⟩
  show lin (act (conv (iblk2 V c 0 t) (iblk2 V c 1 t) (V c main_v29) (V c main_v30) (V c main_arg8))) (V c main_v31) (V c main_arg11) (ix2 p q)
    = H2 V c (((cfg2.win 7).blk t).view.emb (ix2 p q))
  rw [emb_out, lin_rows (act (conv (V c main_v28) (V c main_v18) (V c main_v29) (V c main_v30) (V c main_arg8)))
    (act (conv (iblk2 V c 0 t) (iblk2 V c 1 t) (V c main_v29) (V c main_v30) (V c main_arg8))) (V c main_v31) (V c main_arg11) (row t)
    (fun p k => congrArg lrelu (conv_rows (V c main_v28) (V c main_v18) (iblk2 V c 0 t) (iblk2 V c 1 t) (V c main_v29) (V c main_v30) (V c main_arg8) (row t) (iblk_0 V c t) (iblk_1 V c t) p k)) p q]
  rfl

/-- An index of the result array is in point t's block iff each coordinate is in the block's range on its axis. -/
theorem mem_blk (t : Fin cfg2.N) (i : S50000x3.Idx) :
    i ∈ ((cfg2.win 7).blk t).view.set ↔ ∀ a : Fin 2, win2_7.index t a * S1000x3.size a ≤ (i a).val ∧ (i a).val < win2_7.index t a * S1000x3.size a + S1000x3.size a := by
  show i ∈ ((View.whole main_v32).slice (win2_7.rect t)).set ↔ _
  rw [View.set_slice_whole, Rect.mem_set_unit]
  exact Iff.rfl

/-- Every row lies in the block of the point that is its number divided by 1000. -/
theorem cover (i : S50000x3.Idx) : ∃ t : Fin cfg2.N, (cfg2.win 7).flush t = true ∧ i ∈ ((cfg2.win 7).blk t).view.set := by
  have hi0 : (i 0).val < 50000 := (i 0).isLt
  have hi1 : (i 1).val < 3 := (i 1).isLt
  let t : Fin cfg2.N := ⟨(i 0).val / 1000, by show (i 0).val / 1000 < grid2.N; rw [N_2]; omega⟩
  obtain ⟨-, -, -, -, -, -, -, -, -, -, -, -, e0, e1⟩ := idx_facts t
  have ht : t.val = (i 0).val / 1000 := rfl
  refine ⟨t, flush2_7 t, ?_⟩
  rw [mem_blk]
  intro a
  match a with
  | ⟨0, _⟩ => show win2_7.index t (0 : Fin 2) * 1000 ≤ (i 0).val ∧ (i 0).val < win2_7.index t (0 : Fin 2) * 1000 + 1000; omega
  | ⟨1, _⟩ => show win2_7.index t (1 : Fin 2) * 3 ≤ (i 1).val ∧ (i 1).val < win2_7.index t (1 : Fin 2) * 3 + 3; omega

/-- After the region the result array is that layer of the arrays the region found. -/
theorem final (c : Dev nD) : (dat2 V c).arrAt 7 cfg2.N = H2 V c :=
  (dat2 V c).arrAt_eq_of_cover 7 (H2 V c) (fun t _ => flushed_eq V c t) cover

end Cert.Gnn.Region2

end
-- ==== Proof.KernelStages.lean ====
/-
  The kernel program's arrays, stage by stage.

  Between its three regions the program slices the edge list into sources and destinations, transposes the weight
  matrices, and aggregates: it gathers the rows of the current hidden layer at the source nodes and adds them up at the
  destination nodes. Here each array a region reads is traced back to the arguments, and each region's result is the
  layer of Proof/Spec.lean applied to them: the first hidden layer, the second, and the positions.
-/
import proofs.«110777_j69630009803228_1_alg».proof.Proof.Blocks0
import proofs.«110777_j69630009803228_1_alg».proof.Proof.Blocks1
import proofs.«110777_j69630009803228_1_alg».proof.Proof.Blocks2
import Idealize.ShloMosaic.Lib.StableHlo.Run

set_option maxRecDepth 16384

noncomputable section

namespace Cert.Gnn.Kernel

open Idealize.ShloMosaic Idealize.ShloMosaic.TcCoe Idealize.ShloMosaic.ValueIdx Idealize.SL.Sem Idealize.ShloMosaic.StableHlo
open Cert.KernelIdeal Cert.KernelIdeal.Gen

/-- The edges' source nodes: row 0 of the edge list. -/
def srcOf (e : IVec S2x1600000 32) : IVec S1600000 32 :=
  shapeCast _ (extractStridedSlice S1x1600000 ![0, 0] e slices_S2x1600000_S1x1600000_0_0) shapeCasts_S1x1600000_S1600000
/-- The edges' destination nodes: row 1 of the edge list. -/
def dstOf (e : IVec S2x1600000 32) : IVec S1600000 32 :=
  shapeCast _ (extractStridedSlice S1x1600000 ![1, 0] e slices_S2x1600000_S1x1600000_1_0) shapeCasts_S1x1600000_S1600000

/-- The aggregation of 128 features: the rows of h at the source nodes (a negative index wrapped by the node count),
    added up at the destination nodes, from zero. -/
def agg128 (src dst : IVec S1600000 32) (h : FVec Ideal S50000x128 .f32) : FVec Ideal S50000x128 .f32 :=
  Host.scatterAdd scatter_S50000x128_S1600000x1_S1600000x128_1_0_0_1
    (broadcastInDim S50000x128 ![] bcast_S_S50000x128 (constant (F := Ideal) S_ .f32 0x00000000#32))
    (broadcastInDim S1600000x1 ![0] bcast_S1600000_S1600000x1_0 dst)
    (Host.gather gather_S50000x128_S1600000x1_S1600000x128_1_0_n_n_0_1_1128 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 50000#32))) src)))

/-- The aggregation of 64 features. -/
def agg64 (src dst : IVec S1600000 32) (h : FVec Ideal S50000x64 .f32) : FVec Ideal S50000x64 .f32 :=
  Host.scatterAdd scatter_S50000x64_S1600000x1_S1600000x64_1_0_0_1
    (broadcastInDim S50000x64 ![] bcast_S_S50000x64 (constant (F := Ideal) S_ .f32 0x00000000#32))
    (broadcastInDim S1600000x1 ![0] bcast_S1600000_S1600000x1_0 dst)
    (Host.gather gather_S50000x64_S1600000x1_S1600000x64_1_0_n_n_0_1_164 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 50000#32))) src)))

variable (m : (ℓ : Loc nD τ sig) → Buf (Elt Ideal) ℓ) (ρ : Dev nD → PrngReg)

/-! ## Arrays no stage writes keep their launch contents -/

theorem W1_arg0 (c : Dev nD) : W1 m ρ c (Proc.devRef .tc main_arg0) = m ((c : Thread nD τ).loc main_arg0) := by
  show StableHlo.after hostOps0 (W0 m ρ c) (Proc.devRef .tc main_arg0) = _
  after_results <;> rfl
theorem W1_arg3 (c : Dev nD) : W1 m ρ c (Proc.devRef .tc main_arg3) = m ((c : Thread nD τ).loc main_arg3) := by
  show StableHlo.after hostOps0 (W0 m ρ c) (Proc.devRef .tc main_arg3) = _
  after_results <;> rfl
theorem W1_arg4 (c : Dev nD) : W1 m ρ c (Proc.devRef .tc main_arg4) = m ((c : Thread nD τ).loc main_arg4) := by
  show StableHlo.after hostOps0 (W0 m ρ c) (Proc.devRef .tc main_arg4) = _
  after_results <;> rfl
theorem W1_arg5 (c : Dev nD) : W1 m ρ c (Proc.devRef .tc main_arg5) = m ((c : Thread nD τ).loc main_arg5) := by
  show StableHlo.after hostOps0 (W0 m ρ c) (Proc.devRef .tc main_arg5) = _
  after_results <;> rfl
theorem W1_arg6 (c : Dev nD) : W1 m ρ c (Proc.devRef .tc main_arg6) = m ((c : Thread nD τ).loc main_arg6) := by
  show StableHlo.after hostOps0 (W0 m ρ c) (Proc.devRef .tc main_arg6) = _
  after_results <;> rfl
theorem W1_arg7 (c : Dev nD) : W1 m ρ c (Proc.devRef .tc main_arg7) = m ((c : Thread nD τ).loc main_arg7) := by
  show StableHlo.after hostOps0 (W0 m ρ c) (Proc.devRef .tc main_arg7) = _
  after_results <;> rfl
theorem W1_arg8 (c : Dev nD) : W1 m ρ c (Proc.devRef .tc main_arg8) = m ((c : Thread nD τ).loc main_arg8) := by
  show StableHlo.after hostOps0 (W0 m ρ c) (Proc.devRef .tc main_arg8) = _
  after_results <;> rfl
theorem W1_arg9 (c : Dev nD) : W1 m ρ c (Proc.devRef .tc main_arg9) = m ((c : Thread nD τ).loc main_arg9) := by
  show StableHlo.after hostOps0 (W0 m ρ c) (Proc.devRef .tc main_arg9) = _
  after_results <;> rfl
theorem W1_arg10 (c : Dev nD) : W1 m ρ c (Proc.devRef .tc main_arg10) = m ((c : Thread nD τ).loc main_arg10) := by
  show StableHlo.after hostOps0 (W0 m ρ c) (Proc.devRef .tc main_arg10) = _
  after_results <;> rfl
theorem W1_arg11 (c : Dev nD) : W1 m ρ c (Proc.devRef .tc main_arg11) = m ((c : Thread nD τ).loc main_arg11) := by
  show StableHlo.after hostOps0 (W0 m ρ c) (Proc.devRef .tc main_arg11) = _
  after_results <;> rfl
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W2_arg10 (c : Dev nD) : W2 m ρ c (Proc.devRef .tc main_arg10) = m ((c : Thread nD τ).loc main_arg10) :=
  (W2_of_ne m ρ c main_arg10 (by decide)).trans (W1_arg10 m ρ c)
theorem W2_arg11 (c : Dev nD) : W2 m ρ c (Proc.devRef .tc main_arg11) = m ((c : Thread nD τ).loc main_arg11) :=
  (W2_of_ne m ρ c main_arg11 (by decide)).trans (W1_arg11 m ρ c)
theorem W3_arg5 (c : Dev nD) : W3 m ρ c (Proc.devRef .tc main_arg5) = m ((c : Thread nD τ).loc main_arg5) := by
  show StableHlo.after hostOps1 (W2 m ρ c) (Proc.devRef .tc main_arg5) = _
  after_results
  exact W2_arg5 m ρ c
theorem W3_arg7 (c : Dev nD) : W3 m ρ c (Proc.devRef .tc main_arg7) = m ((c : Thread nD τ).loc main_arg7) := by
  show StableHlo.after hostOps1 (W2 m ρ c) (Proc.devRef .tc main_arg7) = _
  after_results
  exact W2_arg7 m ρ c
theorem W3_arg8 (c : Dev nD) : W3 m ρ c (Proc.devRef .tc main_arg8) = m ((c : Thread nD τ).loc main_arg8) := by
  show StableHlo.after hostOps1 (W2 m ρ c) (Proc.devRef .tc main_arg8) = _
  after_results
  exact W2_arg8 m ρ c
theorem W3_arg9 (c : Dev nD) : W3 m ρ c (Proc.devRef .tc main_arg9) = m ((c : Thread nD τ).loc main_arg9) := by
  show StableHlo.after hostOps1 (W2 m ρ c) (Proc.devRef .tc main_arg9) = _
  after_results
  exact W2_arg9 m ρ c
theorem W3_arg10 (c : Dev nD) : W3 m ρ c (Proc.devRef .tc main_arg10) = m ((c : Thread nD τ).loc main_arg10) := by
  show StableHlo.after hostOps1 (W2 m ρ c) (Proc.devRef .tc main_arg10) = _
  after_results
  exact W2_arg10 m ρ c
theorem W3_arg11 (c : Dev nD) : W3 m ρ c (Proc.devRef .tc main_arg11) = m ((c : Thread nD τ).loc main_arg11) := by
  show StableHlo.after hostOps1 (W2 m ρ c) (Proc.devRef .tc main_arg11) = _
  after_results
  exact W2_arg11 m ρ c
theorem W4_arg7 (c : Dev nD) : W4 m ρ c (Proc.devRef .tc main_arg7) = m ((c : Thread nD τ).loc main_arg7) :=
  (W4_of_ne m ρ c main_arg7 (by decide)).trans (W3_arg7 m ρ c)
theorem W4_arg8 (c : Dev nD) : W4 m ρ c (Proc.devRef .tc main_arg8) = m ((c : Thread nD τ).loc main_arg8) :=
  (W4_of_ne m ρ c main_arg8 (by decide)).trans (W3_arg8 m ρ c)
theorem W4_arg9 (c : Dev nD) : W4 m ρ c (Proc.devRef .tc main_arg9) = m ((c : Thread nD τ).loc main_arg9) :=
  (W4_of_ne m ρ c main_arg9 (by decide)).trans (W3_arg9 m ρ c)
theorem W4_arg10 (c : Dev nD) : W4 m ρ c (Proc.devRef .tc main_arg10) = m ((c : Thread nD τ).loc main_arg10) :=
  (W4_of_ne m ρ c main_arg10 (by decide)).trans (W3_arg10 m ρ c)
theorem W4_arg11 (c : Dev nD) : W4 m ρ c (Proc.devRef .tc main_arg11) = m ((c : Thread nD τ).loc main_arg11) :=
  (W4_of_ne m ρ c main_arg11 (by decide)).trans (W3_arg11 m ρ c)
theorem W5_arg8 (c : Dev nD) : W5 m ρ c (Proc.devRef .tc main_arg8) = m ((c : Thread nD τ).loc main_arg8) := by
  show StableHlo.after hostOps2 (W4 m ρ c) (Proc.devRef .tc main_arg8) = _
  after_results
  exact W4_arg8 m ρ c
theorem W5_arg11 (c : Dev nD) : W5 m ρ c (Proc.devRef .tc main_arg11) = m ((c : Thread nD τ).loc main_arg11) := by
  show StableHlo.after hostOps2 (W4 m ρ c) (Proc.devRef .tc main_arg11) = _
  after_results
  exact W4_arg11 m ρ c

/-! ## The edge list's two rows -/

theorem W1_v1 (c : Dev nD) : W1 m ρ c (Proc.devRef .tc main_v1) = srcOf (m ((c : Thread nD τ).loc main_arg1)) := by
  show StableHlo.after hostOps0 (W0 m ρ c) (Proc.devRef .tc main_v1) = _
  after_results <;> rfl
theorem W1_v3 (c : Dev nD) : W1 m ρ c (Proc.devRef .tc main_v3) = dstOf (m ((c : Thread nD τ).loc main_arg1)) := by
  show StableHlo.after hostOps0 (W0 m ρ c) (Proc.devRef .tc main_v3) = _
  after_results <;> rfl
theorem W2_v1 (c : Dev nD) : W2 m ρ c (Proc.devRef .tc main_v1) = srcOf (m ((c : Thread nD τ).loc main_arg1)) :=
  (W2_of_ne m ρ c main_v1 (by decide)).trans (W1_v1 m ρ c)
theorem W2_v3 (c : Dev nD) : W2 m ρ c (Proc.devRef .tc main_v3) = dstOf (m ((c : Thread nD τ).loc main_arg1)) :=
  (W2_of_ne m ρ c main_v3 (by decide)).trans (W1_v3 m ρ c)
theorem W3_v1 (c : Dev nD) : W3 m ρ c (Proc.devRef .tc main_v1) = srcOf (m ((c : Thread nD τ).loc main_arg1)) := by
  show StableHlo.after hostOps1 (W2 m ρ c) (Proc.devRef .tc main_v1) = _
  after_results
  exact W2_v1 m ρ c
theorem W3_v3 (c : Dev nD) : W3 m ρ c (Proc.devRef .tc main_v3) = dstOf (m ((c : Thread nD τ).loc main_arg1)) := by
  show StableHlo.after hostOps1 (W2 m ρ c) (Proc.devRef .tc main_v3) = _
  after_results
  exact W2_v3 m ρ c
theorem W4_v1 (c : Dev nD) : W4 m ρ c (Proc.devRef .tc main_v1) = srcOf (m ((c : Thread nD τ).loc main_arg1)) :=
  (W4_of_ne m ρ c main_v1 (by decide)).trans (W3_v1 m ρ c)
theorem W4_v3 (c : Dev nD) : W4 m ρ c (Proc.devRef .tc main_v3) = dstOf (m ((c : Thread nD τ).loc main_arg1)) :=
  (W4_of_ne m ρ c main_v3 (by decide)).trans (W3_v3 m ρ c)

/-! ## The first hidden layer -/

/-- The first layer's weight matrix, transposed. -/
def wT1 (w : FVec Ideal S128x2048 .f32) : FVec Ideal S2048x128 .f32 := transpose S2048x128 [1, 0] w transposes_S128x2048_S2048x128_1_0
/-- A first convolution's weight matrix, transposed. -/
def wT2 (w : FVec Ideal S64x128 .f32) : FVec Ideal S128x64 .f32 := transpose S128x64 [1, 0] w transposes_S64x128_S128x64_1_0
/-- A second convolution's weight matrix, transposed. -/
def wT3 (w : FVec Ideal S32x64 .f32) : FVec Ideal S64x32 .f32 := transpose S64x32 [1, 0] w transposes_S32x64_S64x32_1_0
/-- The final layer's weight matrix, transposed. -/
def wT4 (w : FVec Ideal S3x32 .f32) : FVec Ideal S32x3 .f32 := transpose S32x3 [1, 0] w transposes_S3x32_S32x3_1_0

theorem W1_v4 (c : Dev nD) : W1 m ρ c (Proc.devRef .tc main_v4) = wT1 (m ((c : Thread nD τ).loc main_arg2)) := by
  show StableHlo.after hostOps0 (W0 m ρ c) (Proc.devRef .tc main_v4) = _
  after_results <;> rfl

/-- The first hidden layer, of the arguments. -/
def h0 (c : Dev nD) : FVec Ideal S50000x128 .f32 :=
  act (lin (A := 50000) (K := 2048) (B := 128) (m ((c : Thread nD τ).loc main_arg0)) (wT1 (m ((c : Thread nD τ).loc main_arg2))) (m ((c : Thread nD τ).loc main_arg3)))

/-- After the first region its result array holds the first hidden layer. -/
theorem W2_v5 (c : Dev nD) : W2 m ρ c (Proc.devRef .tc main_v5) = h0 m c := by
  refine (W2_arr m ρ c 3).trans ((Region0.final (V1 m ρ) c).trans ?_)
  unfold Region0.H0 h0
  show act (lin (W1 m ρ c (Proc.devRef .tc main_arg0)) (W1 m ρ c (Proc.devRef .tc main_v4)) (W1 m ρ c (Proc.devRef .tc main_arg3))) = _
  rw [W1_arg0, W1_v4, W1_arg3]

/-! ## The second hidden layer -/

theorem W3_v5 (c : Dev nD) : W3 m ρ c (Proc.devRef .tc main_v5) = h0 m c := by
  show StableHlo.after hostOps1 (W2 m ρ c) (Proc.devRef .tc main_v5) = _
  after_results
  exact W2_v5 m ρ c

theorem W3_v15 (c : Dev nD) : W3 m ρ c (Proc.devRef .tc main_v15)
    = agg128 (srcOf (m ((c : Thread nD τ).loc main_arg1))) (dstOf (m ((c : Thread nD τ).loc main_arg1))) (h0 m c) := by
  show StableHlo.after hostOps1 (W2 m ρ c) (Proc.devRef .tc main_v15) = _
  after_results
  rw [W2_v1, W2_v3, W2_v5]
  rfl

theorem W3_v16 (c : Dev nD) : W3 m ρ c (Proc.devRef .tc main_v16) = wT2 (m ((c : Thread nD τ).loc main_arg4)) := by
  show StableHlo.after hostOps1 (W2 m ρ c) (Proc.devRef .tc main_v16) = _
  after_results
  rw [W2_arg4]
  rfl
theorem W3_v17 (c : Dev nD) : W3 m ρ c (Proc.devRef .tc main_v17) = wT2 (m ((c : Thread nD τ).loc main_arg6)) := by
  show StableHlo.after hostOps1 (W2 m ρ c) (Proc.devRef .tc main_v17) = _
  after_results
  rw [W2_arg6]
  rfl

/-- The second hidden layer, of the arguments. -/
def h1 (c : Dev nD) : FVec Ideal S50000x64 .f32 :=
  act (conv (A := 50000) (K := 128) (B := 64)
    (agg128 (srcOf (m ((c : Thread nD τ).loc main_arg1))) (dstOf (m ((c : Thread nD τ).loc main_arg1))) (h0 m c)) (h0 m c)
    (wT2 (m ((c : Thread nD τ).loc main_arg4))) (wT2 (m ((c : Thread nD τ).loc main_arg6))) (m ((c : Thread nD τ).loc main_arg5)))

/-- After the second region its result array holds the second hidden layer. -/
theorem W4_v18 (c : Dev nD) : W4 m ρ c (Proc.devRef .tc main_v18) = h1 m c := by
  refine (W4_arr m ρ c 5).trans ((Region1.final (V3 m ρ) c).trans ?_)
  unfold Region1.H1 h1
  show act (conv (W3 m ρ c (Proc.devRef .tc main_v15)) (W3 m ρ c (Proc.devRef .tc main_v5)) (W3 m ρ c (Proc.devRef .tc main_v16))
    (W3 m ρ c (Proc.devRef .tc main_v17)) (W3 m ρ c (Proc.devRef .tc main_arg5))) = _
  rw [W3_v15, W3_v5, W3_v16, W3_v17, W3_arg5]

/-! ## The positions -/

theorem W5_v18 (c : Dev nD) : W5 m ρ c (Proc.devRef .tc main_v18) = h1 m c := by
  show StableHlo.after hostOps2 (W4 m ρ c) (Proc.devRef .tc main_v18) = _
  after_results
  exact W4_v18 m ρ c

theorem W5_v28 (c : Dev nD) : W5 m ρ c (Proc.devRef .tc main_v28)
    = agg64 (srcOf (m ((c : Thread nD τ).loc main_arg1))) (dstOf (m ((c : Thread nD τ).loc main_arg1))) (h1 m c) := by
  show StableHlo.after hostOps2 (W4 m ρ c) (Proc.devRef .tc main_v28) = _
  after_results
  rw [W4_v1, W4_v3, W4_v18]
  rfl

theorem W5_v29 (c : Dev nD) : W5 m ρ c (Proc.devRef .tc main_v29) = wT3 (m ((c : Thread nD τ).loc main_arg7)) := by
  show StableHlo.after hostOps2 (W4 m ρ c) (Proc.devRef .tc main_v29) = _
  after_results
  rw [W4_arg7]
  rfl
theorem W5_v30 (c : Dev nD) : W5 m ρ c (Proc.devRef .tc main_v30) = wT3 (m ((c : Thread nD τ).loc main_arg9)) := by
  show StableHlo.after hostOps2 (W4 m ρ c) (Proc.devRef .tc main_v30) = _
  after_results
  rw [W4_arg9]
  rfl
theorem W5_v31 (c : Dev nD) : W5 m ρ c (Proc.devRef .tc main_v31) = wT4 (m ((c : Thread nD τ).loc main_arg10)) := by
  show StableHlo.after hostOps2 (W4 m ρ c) (Proc.devRef .tc main_v31) = _
  after_results
  rw [W4_arg10]
  rfl

/-- The positions, of the arguments. -/
def pos (c : Dev nD) : FVec Ideal S50000x3 .f32 :=
  lin (A := 50000) (K := 32) (B := 3)
    (act (conv (A := 50000) (K := 64) (B := 32)
      (agg64 (srcOf (m ((c : Thread nD τ).loc main_arg1))) (dstOf (m ((c : Thread nD τ).loc main_arg1))) (h1 m c)) (h1 m c)
      (wT3 (m ((c : Thread nD τ).loc main_arg7))) (wT3 (m ((c : Thread nD τ).loc main_arg9))) (m ((c : Thread nD τ).loc main_arg8))))
    (wT4 (m ((c : Thread nD τ).loc main_arg10))) (m ((c : Thread nD τ).loc main_arg11))

/-- After the third region the program's result array holds the positions. -/
theorem W6_v32 (c : Dev nD) : W6 m ρ c (Proc.devRef .tc main_v32) = pos m c := by
  refine (W6_arr m ρ c 7).trans ((Region2.final (V5 m ρ) c).trans ?_)
  unfold Region2.H2 pos
  show lin (act (conv (W5 m ρ c (Proc.devRef .tc main_v28)) (W5 m ρ c (Proc.devRef .tc main_v18)) (W5 m ρ c (Proc.devRef .tc main_v29))
    (W5 m ρ c (Proc.devRef .tc main_v30)) (W5 m ρ c (Proc.devRef .tc main_arg8)))) (W5 m ρ c (Proc.devRef .tc main_v31)) (W5 m ρ c (Proc.devRef .tc main_arg11)) = _
  rw [W5_v28, W5_v18, W5_v29, W5_v30, W5_arg8, W5_v31, W5_arg11]

end Cert.Gnn.Kernel

end
-- ==== Proof.KernelRun.lean ====
/-
  The kernel program's run, with its result.

  The program is three regions among stretches of host operations. The library's theorem for such a program runs the
  segments in order from the launch memory and ends with every unscoped buffer at the last boundary's contents; the
  segments, their thread states and the boundary contents are the generated frame's. Read at the result buffer, the
  last boundary's contents are the positions (Proof/KernelStages.lean); read at an argument, the launch contents.
-/
import proofs.«110777_j69630009803228_1_alg».proof.Proof.KernelStages

set_option maxRecDepth 16384

noncomputable section

namespace Cert.Gnn.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- THE RUN: every weakly fair execution of the kernel program terminates, nothing faulting, with the positions in its
    result buffer and the arguments unchanged. -/
theorem run : θ_run defs (onTc (τ := τ) (main (F := Ideal))) ⟨m, fun _ => 0, ρ⟩ (fun r => ∀ c : Dev nD,
      r.2.mem ((c.tc : Thread nD τ).loc main_v32) = pos m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨(h c _ (mem_uc main_v32 (by decide))).trans (W6_v32 m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.Gnn.Kernel

end
-- ==== Proof.LibAfterAppend.lean ====
/-
  The fold of host operations over two lines set end to end.

  `StableHlo.after ops V` is the device's buffer contents after the operations `ops`, in order, from contents `V`. Over
  a concatenation it is the fold over the second line of the fold over the first — for any signature and any type of
  values. With it a long line that is given as several stretches (`List.flatten [s₀, s₁, …]`, after
  `List.flatten_cons` a chain of `++`) is read one stretch at a time: each stretch from ANY contents of which the
  buffers it reads are known, so that no comparison is longer than a stretch.
-/
import Idealize.ShloMosaic.Lib.StableHlo.Run

namespace Idealize.ShloMosaic.StableHlo

variable {τ : Topo} {sig : RefSig} {Val : EltTy → Type}

/-- The contents after `l₁ ++ l₂` are the contents after `l₂` from the contents after `l₁`. -/
theorem after_append (l₁ l₂ : List (HloOp τ sig Val)) (V : Valuation τ sig Val) :
    after (l₁ ++ l₂) V = after l₂ (after l₁ V) := by
  induction l₁ generalizing V with
  | nil => rfl
  | cons op ops ih => simp only [List.cons_append, after_cons]; exact ih _

end Idealize.ShloMosaic.StableHlo
-- ==== Proof.RefRun.lean ====
/-
  The reference program's run, read in three stretches.

  The reference is one line of host operations: the first stretch computes the first hidden layer, the second the
  aggregation and the second hidden layer, the third the second aggregation, the third hidden layer and the positions.
  Each stretch is read from ANY contents of the buffers it reads, so the value of a later stretch names the result of
  the earlier one instead of repeating its term. The run itself is the library's statement for a program of host
  operations only: every weakly fair execution ends with each buffer at the fold of the operations.
-/
import proofs.«110777_j69630009803228_1_alg».proof.Proof.Gen.ReferenceIdeal
import proofs.«110777_j69630009803228_1_alg».proof.Proof.Spec
import proofs.«110777_j69630009803228_1_alg».proof.Proof.LibAfterAppend
import Idealize.ShloMosaic.Lib.StableHlo.Run

set_option maxRecDepth 16384

noncomputable section

namespace Cert.Gnn.Ref

open Cert.ReferenceIdeal Cert.ReferenceIdeal.Gen Idealize.ShloMosaic Idealize.ShloMosaic.TcCoe Idealize.SL.Sem Idealize.ShloMosaic.StableHlo
open Idealize.ShloMosaic.ValueIdx

section Ops
variable {F : FTy → Type} [FloatOps F]

/-- The operations up to the first hidden layer. -/
abbrev ops1 : List (HloOp τ sig (Elt F)) :=
  [ unary main_arg2 main_v0 ((transpose S2048x128 [1, 0] · transposes_S128x2048_S2048x128_1_0) : (⟨S128x2048, .f32⟩ : BufTy).Contents (Elt F) → (⟨S2048x128, .f32⟩ : BufTy).Contents (Elt F)),
    binary main_arg0 main_v0 main_v1 ((fun l r => Host.dotGeneral dot_S50000x2048_S2048x128_S50000x128_1_0_0_1_n_n none l r) : (⟨S50000x2048, .f32⟩ : BufTy).Contents (Elt F) → (⟨S2048x128, .f32⟩ : BufTy).Contents (Elt F) → (⟨S50000x128, .f32⟩ : BufTy).Contents (Elt F)),
    unary main_arg3 main_v2 (broadcastInDim S1x128 ![1] bcast_S128_S1x128_1 : (⟨S128, .f32⟩ : BufTy).Contents (Elt F) → (⟨S1x128, .f32⟩ : BufTy).Contents (Elt F)),
    unary main_v2 main_v3 (broadcastInDim S50000x128 ![0, 1] bcast_S1x128_S50000x128_0_1 : (⟨S1x128, .f32⟩ : BufTy).Contents (Elt F) → (⟨S50000x128, .f32⟩ : BufTy).Contents (Elt F)),
    binary main_v1 main_v3 main_v4 (addf : (⟨S50000x128, .f32⟩ : BufTy).Contents (Elt F) → (⟨S50000x128, .f32⟩ : BufTy).Contents (Elt F) → (⟨S50000x128, .f32⟩ : BufTy).Contents (Elt F)),
    nullary main_cst (constant S_ .f32 0x00000000#32),
    unary main_cst main_v5 (broadcastInDim S50000x128 ![] bcast_S_S50000x128 : (⟨S_, .f32⟩ : BufTy).Contents (Elt F) → (⟨S50000x128, .f32⟩ : BufTy).Contents (Elt F)),
    binary main_v4 main_v5 main_v6 (cmpf .oge : (⟨S50000x128, .f32⟩ : BufTy).Contents (Elt F) → (⟨S50000x128, .f32⟩ : BufTy).Contents (Elt F) → (⟨S50000x128, .i1⟩ : BufTy).Contents (Elt F)),
    nullary main_cst_0 (constant S_ .f32 0x3C23D70A#32),
    unary main_cst_0 main_v7 (broadcastInDim S50000x128 ![] bcast_S_S50000x128 : (⟨S_, .f32⟩ : BufTy).Contents (Elt F) → (⟨S50000x128, .f32⟩ : BufTy).Contents (Elt F)),
    binary main_v7 main_v4 main_v8 (mulf : (⟨S50000x128, .f32⟩ : BufTy).Contents (Elt F) → (⟨S50000x128, .f32⟩ : BufTy).Contents (Elt F) → (⟨S50000x128, .f32⟩ : BufTy).Contents (Elt F)),
    ternary main_v6 main_v4 main_v8 main_v9 (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F)) ]

/-- From there to the second hidden layer. -/
abbrev ops2 : List (HloOp τ sig (Elt F)) :=
  [ unary main_arg1 main_v10 ((extractStridedSlice S1x1600000 ![0, 0] · slices_S2x1600000_S1x1600000_0_0) : (⟨S2x1600000, .i32⟩ : BufTy).Contents (Elt F) → (⟨S1x1600000, .i32⟩ : BufTy).Contents (Elt F)),
    reshape main_v10 main_v11 rfl shapeCasts_S1x1600000_S1600000,
    unary main_arg1 main_v12 ((extractStridedSlice S1x1600000 ![1, 0] · slices_S2x1600000_S1x1600000_1_0) : (⟨S2x1600000, .i32⟩ : BufTy).Contents (Elt F) → (⟨S1x1600000, .i32⟩ : BufTy).Contents (Elt F)),
    reshape main_v12 main_v13 rfl shapeCasts_S1x1600000_S1600000,
    nullary main_c (constantI S_ 32 0#32),
    unary main_c main_v14 (broadcastInDim S1600000 ![] bcast_S_S1600000 : (⟨S_, .i32⟩ : BufTy).Contents (Elt F) → (⟨S1600000, .i32⟩ : BufTy).Contents (Elt F)),
    binary main_v11 main_v14 main_v15 (cmpi .slt : (⟨S1600000, .i32⟩ : BufTy).Contents (Elt F) → (⟨S1600000, .i32⟩ : BufTy).Contents (Elt F) → (⟨S1600000, .i1⟩ : BufTy).Contents (Elt F)),
    nullary main_c_1 (constantI S_ 32 50000#32),
    unary main_c_1 main_v16 (broadcastInDim S1600000 ![] bcast_S_S1600000 : (⟨S_, .i32⟩ : BufTy).Contents (Elt F) → (⟨S1600000, .i32⟩ : BufTy).Contents (Elt F)),
    binary main_v11 main_v16 main_v17 (addi : (⟨S1600000, .i32⟩ : BufTy).Contents (Elt F) → (⟨S1600000, .i32⟩ : BufTy).Contents (Elt F) → (⟨S1600000, .i32⟩ : BufTy).Contents (Elt F)),
    ternary main_v15 main_v17 main_v11 main_v18 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v18 main_v19 (broadcastInDim S1600000x1 ![0] bcast_S1600000_S1600000x1_0 : (⟨S1600000, .i32⟩ : BufTy).Contents (Elt F) → (⟨S1600000x1, .i32⟩ : BufTy).Contents (Elt F)),
    binary main_v9 main_v19 main_v20 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    nullary main_cst_2 (constant S_ .f32 0x00000000#32),
    unary main_cst_2 main_v21 (broadcastInDim S50000x128 ![] bcast_S_S50000x128 : (⟨S_, .f32⟩ : BufTy).Contents (Elt F) → (⟨S50000x128, .f32⟩ : BufTy).Contents (Elt F)),
    unary main_v13 main_v22 (broadcastInDim S1600000x1 ![0] bcast_S1600000_S1600000x1_0 : (⟨S1600000, .i32⟩ : BufTy).Contents (Elt F) → (⟨S1600000x1, .i32⟩ : BufTy).Contents (Elt F)),
    ternary main_v21 main_v22 main_v20 main_v23 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    unary main_arg4 main_v24 ((transpose S128x64 [1, 0] · transposes_S64x128_S128x64_1_0) : (⟨S64x128, .f32⟩ : BufTy).Contents (Elt F) → (⟨S128x64, .f32⟩ : BufTy).Contents (Elt F)),
    binary main_v23 main_v24 main_v25 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg5 main_v26 (broadcastInDim S1x64 ![1] bcast_S64_S1x64_1 : (⟨S64, .f32⟩ : BufTy).Contents (Elt F) → (⟨S1x64, .f32⟩ : BufTy).Contents (Elt F)),
    unary main_v26 main_v27 (broadcastInDim S50000x64 ![0, 1] bcast_S1x64_S50000x64_0_1 : (⟨S1x64, .f32⟩ : BufTy).Contents (Elt F) → (⟨S50000x64, .f32⟩ : BufTy).Contents (Elt F)),
    binary main_v25 main_v27 main_v28 (addf : (⟨S50000x64, .f32⟩ : BufTy).Contents (Elt F) → (⟨S50000x64, .f32⟩ : BufTy).Contents (Elt F) → (⟨S50000x64, .f32⟩ : BufTy).Contents (Elt F)),
    unary main_arg6 main_v29 ((transpose S128x64 [1, 0] · transposes_S64x128_S128x64_1_0) : (⟨S64x128, .f32⟩ : BufTy).Contents (Elt F) → (⟨S128x64, .f32⟩ : BufTy).Contents (Elt F)),
    binary main_v9 main_v29 main_v30 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    binary main_v28 main_v30 main_v31 (addf : (⟨S50000x64, .f32⟩ : BufTy).Contents (Elt F) → (⟨S50000x64, .f32⟩ : BufTy).Contents (Elt F) → (⟨S50000x64, .f32⟩ : BufTy).Contents (Elt F)),
    nullary main_cst_3 (constant S_ .f32 0x00000000#32),
    unary main_cst_3 main_v32 (broadcastInDim S50000x64 ![] bcast_S_S50000x64 : (⟨S_, .f32⟩ : BufTy).Contents (Elt F) → (⟨S50000x64, .f32⟩ : BufTy).Contents (Elt F)),
    binary main_v31 main_v32 main_v33 (cmpf .oge : (⟨S50000x64, .f32⟩ : BufTy).Contents (Elt F) → (⟨S50000x64, .f32⟩ : BufTy).Contents (Elt F) → (⟨S50000x64, .i1⟩ : BufTy).Contents (Elt F)),
    nullary main_cst_4 (constant S_ .f32 0x3C23D70A#32),
    unary main_cst_4 main_v34 (broadcastInDim S50000x64 ![] bcast_S_S50000x64 : (⟨S_, .f32⟩ : BufTy).Contents (Elt F) → (⟨S50000x64, .f32⟩ : BufTy).Contents (Elt F)),
    binary main_v34 main_v31 main_v35 (mulf : (⟨S50000x64, .f32⟩ : BufTy).Contents (Elt F) → (⟨S50000x64, .f32⟩ : BufTy).Contents (Elt F) → (⟨S50000x64, .f32⟩ : BufTy).Contents (Elt F)),
    ternary main_v33 main_v31 main_v35 main_v36 (select : (⟨S50000x64, .i1⟩ : BufTy).Contents (Elt F) → (⟨S50000x64, .f32⟩ : BufTy).Contents (Elt F) → (⟨S50000x64, .f32⟩ : BufTy).Contents (Elt F) → (⟨S50000x64, .f32⟩ : BufTy).Contents (Elt F)) ]

/-- From there to the positions. -/
abbrev ops3 : List (HloOp τ sig (Elt F)) :=
  [ unary main_arg1 main_v37 ((extractStridedSlice S1x1600000 ![0, 0] · slices_S2x1600000_S1x1600000_0_0) : (⟨S2x1600000, .i32⟩ : BufTy).Contents (Elt F) → (⟨S1x1600000, .i32⟩ : BufTy).Contents (Elt F)),
    reshape main_v37 main_v38 rfl shapeCasts_S1x1600000_S1600000,
    unary main_arg1 main_v39 ((extractStridedSlice S1x1600000 ![1, 0] · slices_S2x1600000_S1x1600000_1_0) : (⟨S2x1600000, .i32⟩ : BufTy).Contents (Elt F) → (⟨S1x1600000, .i32⟩ : BufTy).Contents (Elt F)),
    reshape main_v39 main_v40 rfl shapeCasts_S1x1600000_S1600000,
    nullary main_c_5 (constantI S_ 32 0#32),
    unary main_c_5 main_v41 (broadcastInDim S1600000 ![] bcast_S_S1600000 : (⟨S_, .i32⟩ : BufTy).Contents (Elt F) → (⟨S1600000, .i32⟩ : BufTy).Contents (Elt F)),
    binary main_v38 main_v41 main_v42 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 50000#32),
    unary main_c_6 main_v43 (broadcastInDim S1600000 ![] bcast_S_S1600000 : (⟨S_, .i32⟩ : BufTy).Contents (Elt F) → (⟨S1600000, .i32⟩ : BufTy).Contents (Elt F)),
    binary main_v38 main_v43 main_v44 (addi : (⟨S1600000, .i32⟩ : BufTy).Contents (Elt F) → (⟨S1600000, .i32⟩ : BufTy).Contents (Elt F) → (⟨S1600000, .i32⟩ : BufTy).Contents (Elt F)),
    ternary main_v42 main_v44 main_v38 main_v45 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v45 main_v46 (broadcastInDim S1600000x1 ![0] bcast_S1600000_S1600000x1_0 : (⟨S1600000, .i32⟩ : BufTy).Contents (Elt F) → (⟨S1600000x1, .i32⟩ : BufTy).Contents (Elt F)),
    binary main_v36 main_v46 main_v47 ((fun x i => Host.gather gather_S50000x64_S1600000x1_S1600000x64_1_0_n_n_0_1_164 x i) : (⟨S50000x64, .f32⟩ : BufTy).Contents (Elt F) → (⟨S1600000x1, .i32⟩ : BufTy).Contents (Elt F) → (⟨S1600000x64, .f32⟩ : BufTy).Contents (Elt F)),
    nullary main_cst_7 (constant S_ .f32 0x00000000#32),
    unary main_cst_7 main_v48 (broadcastInDim S50000x64 ![] bcast_S_S50000x64 : (⟨S_, .f32⟩ : BufTy).Contents (Elt F) → (⟨S50000x64, .f32⟩ : BufTy).Contents (Elt F)),
    unary main_v40 main_v49 (broadcastInDim S1600000x1 ![0] bcast_S1600000_S1600000x1_0 : (⟨S1600000, .i32⟩ : BufTy).Contents (Elt F) → (⟨S1600000x1, .i32⟩ : BufTy).Contents (Elt F)),
    ternary main_v48 main_v49 main_v47 main_v50 ((fun x i u => Host.scatterAdd scatter_S50000x64_S1600000x1_S1600000x64_1_0_0_1 x i u) : (⟨S50000x64, .f32⟩ : BufTy).Contents (Elt F) → (⟨S1600000x1, .i32⟩ : BufTy).Contents (Elt F) → (⟨S1600000x64, .f32⟩ : BufTy).Contents (Elt F) → (⟨S50000x64, .f32⟩ : BufTy).Contents (Elt F)),
    unary main_arg7 main_v51 ((transpose S64x32 [1, 0] · transposes_S32x64_S64x32_1_0) : (⟨S32x64, .f32⟩ : BufTy).Contents (Elt F) → (⟨S64x32, .f32⟩ : BufTy).Contents (Elt F)),
    binary main_v50 main_v51 main_v52 ((fun l r => Host.dotGeneral dot_S50000x64_S64x32_S50000x32_1_0_0_1_n_n none l r) : (⟨S50000x64, .f32⟩ : BufTy).Contents (Elt F) → (⟨S64x32, .f32⟩ : BufTy).Contents (Elt F) → (⟨S50000x32, .f32⟩ : BufTy).Contents (Elt F)),
    unary main_arg8 main_v53 (broadcastInDim S1x32 ![1] bcast_S32_S1x32_1 : (⟨S32, .f32⟩ : BufTy).Contents (Elt F) → (⟨S1x32, .f32⟩ : BufTy).Contents (Elt F)),
    unary main_v53 main_v54 (broadcastInDim S50000x32 ![0, 1] bcast_S1x32_S50000x32_0_1 : (⟨S1x32, .f32⟩ : BufTy).Contents (Elt F) → (⟨S50000x32, .f32⟩ : BufTy).Contents (Elt F)),
    binary main_v52 main_v54 main_v55 (addf : (⟨S50000x32, .f32⟩ : BufTy).Contents (Elt F) → (⟨S50000x32, .f32⟩ : BufTy).Contents (Elt F) → (⟨S50000x32, .f32⟩ : BufTy).Contents (Elt F)),
    unary main_arg9 main_v56 ((transpose S64x32 [1, 0] · transposes_S32x64_S64x32_1_0) : (⟨S32x64, .f32⟩ : BufTy).Contents (Elt F) → (⟨S64x32, .f32⟩ : BufTy).Contents (Elt F)),
    binary main_v36 main_v56 main_v57 ((fun l r => Host.dotGeneral dot_S50000x64_S64x32_S50000x32_1_0_0_1_n_n none l r) : (⟨S50000x64, .f32⟩ : BufTy).Contents (Elt F) → (⟨S64x32, .f32⟩ : BufTy).Contents (Elt F) → (⟨S50000x32, .f32⟩ : BufTy).Contents (Elt F)),
    binary main_v55 main_v57 main_v58 (addf : (⟨S50000x32, .f32⟩ : BufTy).Contents (Elt F) → (⟨S50000x32, .f32⟩ : BufTy).Contents (Elt F) → (⟨S50000x32, .f32⟩ : BufTy).Contents (Elt F)),
    nullary main_cst_8 (constant S_ .f32 0x00000000#32),
    unary main_cst_8 main_v59 (broadcastInDim S50000x32 ![] bcast_S_S50000x32 : (⟨S_, .f32⟩ : BufTy).Contents (Elt F) → (⟨S50000x32, .f32⟩ : BufTy).Contents (Elt F)),
    binary main_v58 main_v59 main_v60 (cmpf .oge : (⟨S50000x32, .f32⟩ : BufTy).Contents (Elt F) → (⟨S50000x32, .f32⟩ : BufTy).Contents (Elt F) → (⟨S50000x32, .i1⟩ : BufTy).Contents (Elt F)),
    nullary main_cst_9 (constant S_ .f32 0x3C23D70A#32),
    unary main_cst_9 main_v61 (broadcastInDim S50000x32 ![] bcast_S_S50000x32 : (⟨S_, .f32⟩ : BufTy).Contents (Elt F) → (⟨S50000x32, .f32⟩ : BufTy).Contents (Elt F)),
    binary main_v61 main_v58 main_v62 (mulf : (⟨S50000x32, .f32⟩ : BufTy).Contents (Elt F) → (⟨S50000x32, .f32⟩ : BufTy).Contents (Elt F) → (⟨S50000x32, .f32⟩ : BufTy).Contents (Elt F)),
    ternary main_v60 main_v58 main_v62 main_v63 (select : (⟨S50000x32, .i1⟩ : BufTy).Contents (Elt F) → (⟨S50000x32, .f32⟩ : BufTy).Contents (Elt F) → (⟨S50000x32, .f32⟩ : BufTy).Contents (Elt F) → (⟨S50000x32, .f32⟩ : BufTy).Contents (Elt F)),
    unary main_arg10 main_v64 ((transpose S32x3 [1, 0] · transposes_S3x32_S32x3_1_0) : (⟨S3x32, .f32⟩ : BufTy).Contents (Elt F) → (⟨S32x3, .f32⟩ : BufTy).Contents (Elt F)),
    binary main_v63 main_v64 main_v65 ((fun l r => Host.dotGeneral dot_S50000x32_S32x3_S50000x3_1_0_0_1_n_n none l r) : (⟨S50000x32, .f32⟩ : BufTy).Contents (Elt F) → (⟨S32x3, .f32⟩ : BufTy).Contents (Elt F) → (⟨S50000x3, .f32⟩ : BufTy).Contents (Elt F)),
    unary main_arg11 main_v66 (broadcastInDim S1x3 ![1] bcast_S3_S1x3_1 : (⟨S3, .f32⟩ : BufTy).Contents (Elt F) → (⟨S1x3, .f32⟩ : BufTy).Contents (Elt F)),
    unary main_v66 main_v67 (broadcastInDim S50000x3 ![0, 1] bcast_S1x3_S50000x3_0_1 : (⟨S1x3, .f32⟩ : BufTy).Contents (Elt F) → (⟨S50000x3, .f32⟩ : BufTy).Contents (Elt F)),
    binary main_v65 main_v67 main_v68 (addf : (⟨S50000x3, .f32⟩ : BufTy).Contents (Elt F) → (⟨S50000x3, .f32⟩ : BufTy).Contents (Elt F) → (⟨S50000x3, .f32⟩ : BufTy).Contents (Elt F)) ]

/-- @main's operations, in order. -/
abbrev ops : List (HloOp τ sig (Elt F)) := ops1 ++ (ops2 ++ ops3)

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem forall_append {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

set_option maxRecDepth 8192 in
theorem ops1_sub : (ops1 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩
set_option maxRecDepth 8192 in
theorem ops2_sub : (ops2 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., ternary_bufs_sub ..⟩
set_option maxRecDepth 8192 in
theorem ops3_sub : (ops3 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub ..⟩
theorem ops_sub : (ops : List (HloOp τ sig (Elt F))).Forall fun op => op.bufs ⊆ tcRefs τ sig :=
  forall_append ops1_sub (forall_append ops2_sub ops3_sub)

theorem ops1_fresh : (ops1 : List (HloOp τ sig (Elt F))).Forall fun op => op.fresh = ∅ := by
  simp only [List.Forall]; repeat' constructor
theorem ops2_fresh : (ops2 : List (HloOp τ sig (Elt F))).Forall fun op => op.fresh = ∅ := by
  simp only [List.Forall]; repeat' constructor
theorem ops3_fresh : (ops3 : List (HloOp τ sig (Elt F))).Forall fun op => op.fresh = ∅ := by
  simp only [List.Forall]; repeat' constructor
theorem ops_fresh : ∀ op ∈ (ops : List (HloOp τ sig (Elt F))), op.fresh = ∅ :=
  List.forall_iff_forall_mem.mp (forall_append ops1_fresh (forall_append ops2_fresh ops3_fresh))

end Ops

/-! ## The pieces the stretches compute -/

/-- The edges' source nodes: row 0 of the edge list. -/
def srcOf (e : IVec S2x1600000 32) : IVec S1600000 32 :=
  shapeCast _ (extractStridedSlice S1x1600000 ![0, 0] e slices_S2x1600000_S1x1600000_0_0) shapeCasts_S1x1600000_S1600000
/-- The edges' destination nodes: row 1 of the edge list. -/
def dstOf (e : IVec S2x1600000 32) : IVec S1600000 32 :=
  shapeCast _ (extractStridedSlice S1x1600000 ![1, 0] e slices_S2x1600000_S1x1600000_1_0) shapeCasts_S1x1600000_S1600000

/-- The aggregation of 128 features: the rows of h at the source nodes (a negative index wrapped by the node count),
    added up at the destination nodes, from zero. -/
def agg128 (src dst : IVec S1600000 32) (h : FVec Ideal S50000x128 .f32) : FVec Ideal S50000x128 .f32 :=
  Host.scatterAdd scatter_S50000x128_S1600000x1_S1600000x128_1_0_0_1
    (broadcastInDim S50000x128 ![] bcast_S_S50000x128 (constant (F := Ideal) S_ .f32 0x00000000#32))
    (broadcastInDim S1600000x1 ![0] bcast_S1600000_S1600000x1_0 dst)
    (Host.gather gather_S50000x128_S1600000x1_S1600000x128_1_0_n_n_0_1_1128 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 50000#32))) src)))

/-- The aggregation of 64 features. -/
def agg64 (src dst : IVec S1600000 32) (h : FVec Ideal S50000x64 .f32) : FVec Ideal S50000x64 .f32 :=
  Host.scatterAdd scatter_S50000x64_S1600000x1_S1600000x64_1_0_0_1
    (broadcastInDim S50000x64 ![] bcast_S_S50000x64 (constant (F := Ideal) S_ .f32 0x00000000#32))
    (broadcastInDim S1600000x1 ![0] bcast_S1600000_S1600000x1_0 dst)
    (Host.gather gather_S50000x64_S1600000x1_S1600000x64_1_0_n_n_0_1_164 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 50000#32))) src)))

/-- The weight matrices, transposed as the program transposes them. -/
def wT1 (w : FVec Ideal S128x2048 .f32) : FVec Ideal S2048x128 .f32 := transpose S2048x128 [1, 0] w transposes_S128x2048_S2048x128_1_0
def wT2 (w : FVec Ideal S64x128 .f32) : FVec Ideal S128x64 .f32 := transpose S128x64 [1, 0] w transposes_S64x128_S128x64_1_0
def wT3 (w : FVec Ideal S32x64 .f32) : FVec Ideal S64x32 .f32 := transpose S64x32 [1, 0] w transposes_S32x64_S64x32_1_0
def wT4 (w : FVec Ideal S3x32 .f32) : FVec Ideal S32x3 .f32 := transpose S32x3 [1, 0] w transposes_S3x32_S32x3_1_0

theorem dotA : dot_S50000x2048_S2048x128_S50000x128_1_0_0_1_n_n = DotDims.plain 50000 2048 128 := rfl
theorem dotB : dot_S50000x128_S128x64_S50000x64_1_0_0_1_n_n = DotDims.plain 50000 128 64 := rfl
theorem dotC : dot_S50000x64_S64x32_S50000x32_1_0_0_1_n_n = DotDims.plain 50000 64 32 := rfl
theorem dotD : dot_S50000x32_S32x3_S50000x3_1_0_0_1_n_n = DotDims.plain 50000 32 3 := rfl

/-! ## The three stretches, each from any contents -/

/-- The first stretch leaves the first hidden layer of the arrays it finds. -/
theorem stage1 (V : Valuation τ sig (Elt Ideal)) :
    after ops1 V (Proc.devRef .tc main_v9)
      = act (lin (A := 50000) (K := 2048) (B := 128) (V (Proc.devRef .tc main_arg0)) (wT1 (V (Proc.devRef .tc main_arg2))) (V (Proc.devRef .tc main_arg3))) := by
  after_results
  rw [pre_lin _ dotA]
  exact leaky_host _ _

set_option maxHeartbeats 4000000 in
/-- The second stretch leaves the second hidden layer of the first and the arrays it finds. -/
theorem stage2 (V : Valuation τ sig (Elt Ideal)) :
    after ops2 V (Proc.devRef .tc main_v36)
      = act (conv (A := 50000) (K := 128) (B := 64)
          (agg128 (srcOf (V (Proc.devRef .tc main_arg1))) (dstOf (V (Proc.devRef .tc main_arg1))) (V (Proc.devRef .tc main_v9)))
          (V (Proc.devRef .tc main_v9)) (wT2 (V (Proc.devRef .tc main_arg4))) (wT2 (V (Proc.devRef .tc main_arg6))) (V (Proc.devRef .tc main_arg5))) := by
  unfold agg128 srcOf dstOf wT2
  after_results_simp
  rw [pre_conv _ dotB]
  exact leaky_host _ _

set_option maxHeartbeats 4000000 in
/-- The third stretch leaves the positions of the second hidden layer and the arrays it finds. -/
theorem stage3 (V : Valuation τ sig (Elt Ideal)) :
    after ops3 V (Proc.devRef .tc main_v68)
      = lin (A := 50000) (K := 32) (B := 3)
          (act (conv (A := 50000) (K := 64) (B := 32)
            (agg64 (srcOf (V (Proc.devRef .tc main_arg1))) (dstOf (V (Proc.devRef .tc main_arg1))) (V (Proc.devRef .tc main_v36)))
            (V (Proc.devRef .tc main_v36)) (wT3 (V (Proc.devRef .tc main_arg7))) (wT3 (V (Proc.devRef .tc main_arg9))) (V (Proc.devRef .tc main_arg8))))
          (wT4 (V (Proc.devRef .tc main_arg10))) (V (Proc.devRef .tc main_arg11)) := by
  unfold agg64 srcOf dstOf wT3 wT4
  after_results_simp
  rw [pre_conv _ dotC, pre_lin _ dotD]
  exact congrArg (fun X => lin X _ _) (leaky_host _ _)

/-! ## No stretch writes an argument -/

theorem keep1_arg0 (V : Valuation τ sig (Elt Ideal)) : after ops1 V (Proc.devRef .tc main_arg0) = V (Proc.devRef .tc main_arg0) := by
  after_results <;> rfl
theorem keep1_arg1 (V : Valuation τ sig (Elt Ideal)) : after ops1 V (Proc.devRef .tc main_arg1) = V (Proc.devRef .tc main_arg1) := by
  after_results <;> rfl
theorem keep1_arg2 (V : Valuation τ sig (Elt Ideal)) : after ops1 V (Proc.devRef .tc main_arg2) = V (Proc.devRef .tc main_arg2) := by
  after_results <;> rfl
theorem keep1_arg3 (V : Valuation τ sig (Elt Ideal)) : after ops1 V (Proc.devRef .tc main_arg3) = V (Proc.devRef .tc main_arg3) := by
  after_results <;> rfl
theorem keep1_arg4 (V : Valuation τ sig (Elt Ideal)) : after ops1 V (Proc.devRef .tc main_arg4) = V (Proc.devRef .tc main_arg4) := by
  after_results <;> rfl
theorem keep1_arg5 (V : Valuation τ sig (Elt Ideal)) : after ops1 V (Proc.devRef .tc main_arg5) = V (Proc.devRef .tc main_arg5) := by
  after_results <;> rfl
theorem keep1_arg6 (V : Valuation τ sig (Elt Ideal)) : after ops1 V (Proc.devRef .tc main_arg6) = V (Proc.devRef .tc main_arg6) := by
  after_results <;> rfl
theorem keep1_arg7 (V : Valuation τ sig (Elt Ideal)) : after ops1 V (Proc.devRef .tc main_arg7) = V (Proc.devRef .tc main_arg7) := by
  after_results <;> rfl
theorem keep1_arg8 (V : Valuation τ sig (Elt Ideal)) : after ops1 V (Proc.devRef .tc main_arg8) = V (Proc.devRef .tc main_arg8) := by
  after_results <;> rfl
theorem keep1_arg9 (V : Valuation τ sig (Elt Ideal)) : after ops1 V (Proc.devRef .tc main_arg9) = V (Proc.devRef .tc main_arg9) := by
  after_results <;> rfl
theorem keep1_arg10 (V : Valuation τ sig (Elt Ideal)) : after ops1 V (Proc.devRef .tc main_arg10) = V (Proc.devRef .tc main_arg10) := by
  after_results <;> rfl
theorem keep1_arg11 (V : Valuation τ sig (Elt Ideal)) : after ops1 V (Proc.devRef .tc main_arg11) = V (Proc.devRef .tc main_arg11) := by
  after_results <;> rfl
theorem keep2_arg0 (V : Valuation τ sig (Elt Ideal)) : after ops2 V (Proc.devRef .tc main_arg0) = V (Proc.devRef .tc main_arg0) := by
  after_results <;> rfl
theorem keep2_arg1 (V : Valuation τ sig (Elt Ideal)) : after ops2 V (Proc.devRef .tc main_arg1) = V (Proc.devRef .tc main_arg1) := by
  after_results <;> rfl
theorem keep2_arg2 (V : Valuation τ sig (Elt Ideal)) : after ops2 V (Proc.devRef .tc main_arg2) = V (Proc.devRef .tc main_arg2) := by
  after_results <;> rfl
theorem keep2_arg3 (V : Valuation τ sig (Elt Ideal)) : after ops2 V (Proc.devRef .tc main_arg3) = V (Proc.devRef .tc main_arg3) := by
  after_results <;> rfl
theorem keep2_arg4 (V : Valuation τ sig (Elt Ideal)) : after ops2 V (Proc.devRef .tc main_arg4) = V (Proc.devRef .tc main_arg4) := by
  after_results <;> rfl
theorem keep2_arg5 (V : Valuation τ sig (Elt Ideal)) : after ops2 V (Proc.devRef .tc main_arg5) = V (Proc.devRef .tc main_arg5) := by
  after_results <;> rfl
theorem keep2_arg6 (V : Valuation τ sig (Elt Ideal)) : after ops2 V (Proc.devRef .tc main_arg6) = V (Proc.devRef .tc main_arg6) := by
  after_results <;> rfl
theorem keep2_arg7 (V : Valuation τ sig (Elt Ideal)) : after ops2 V (Proc.devRef .tc main_arg7) = V (Proc.devRef .tc main_arg7) := by
  after_results <;> rfl
theorem keep2_arg8 (V : Valuation τ sig (Elt Ideal)) : after ops2 V (Proc.devRef .tc main_arg8) = V (Proc.devRef .tc main_arg8) := by
  after_results <;> rfl
theorem keep2_arg9 (V : Valuation τ sig (Elt Ideal)) : after ops2 V (Proc.devRef .tc main_arg9) = V (Proc.devRef .tc main_arg9) := by
  after_results <;> rfl
theorem keep2_arg10 (V : Valuation τ sig (Elt Ideal)) : after ops2 V (Proc.devRef .tc main_arg10) = V (Proc.devRef .tc main_arg10) := by
  after_results <;> rfl
theorem keep2_arg11 (V : Valuation τ sig (Elt Ideal)) : after ops2 V (Proc.devRef .tc main_arg11) = V (Proc.devRef .tc main_arg11) := by
  after_results <;> rfl
theorem keep3_arg0 (V : Valuation τ sig (Elt Ideal)) : after ops3 V (Proc.devRef .tc main_arg0) = V (Proc.devRef .tc main_arg0) := by
  after_results <;> rfl
theorem keep3_arg1 (V : Valuation τ sig (Elt Ideal)) : after ops3 V (Proc.devRef .tc main_arg1) = V (Proc.devRef .tc main_arg1) := by
  after_results <;> rfl
theorem keep3_arg2 (V : Valuation τ sig (Elt Ideal)) : after ops3 V (Proc.devRef .tc main_arg2) = V (Proc.devRef .tc main_arg2) := by
  after_results <;> rfl
theorem keep3_arg3 (V : Valuation τ sig (Elt Ideal)) : after ops3 V (Proc.devRef .tc main_arg3) = V (Proc.devRef .tc main_arg3) := by
  after_results <;> rfl
theorem keep3_arg4 (V : Valuation τ sig (Elt Ideal)) : after ops3 V (Proc.devRef .tc main_arg4) = V (Proc.devRef .tc main_arg4) := by
  after_results <;> rfl
theorem keep3_arg5 (V : Valuation τ sig (Elt Ideal)) : after ops3 V (Proc.devRef .tc main_arg5) = V (Proc.devRef .tc main_arg5) := by
  after_results <;> rfl
theorem keep3_arg6 (V : Valuation τ sig (Elt Ideal)) : after ops3 V (Proc.devRef .tc main_arg6) = V (Proc.devRef .tc main_arg6) := by
  after_results <;> rfl
theorem keep3_arg7 (V : Valuation τ sig (Elt Ideal)) : after ops3 V (Proc.devRef .tc main_arg7) = V (Proc.devRef .tc main_arg7) := by
  after_results <;> rfl
theorem keep3_arg8 (V : Valuation τ sig (Elt Ideal)) : after ops3 V (Proc.devRef .tc main_arg8) = V (Proc.devRef .tc main_arg8) := by
  after_results <;> rfl
theorem keep3_arg9 (V : Valuation τ sig (Elt Ideal)) : after ops3 V (Proc.devRef .tc main_arg9) = V (Proc.devRef .tc main_arg9) := by
  after_results <;> rfl
theorem keep3_arg10 (V : Valuation τ sig (Elt Ideal)) : after ops3 V (Proc.devRef .tc main_arg10) = V (Proc.devRef .tc main_arg10) := by
  after_results <;> rfl
theorem keep3_arg11 (V : Valuation τ sig (Elt Ideal)) : after ops3 V (Proc.devRef .tc main_arg11) = V (Proc.devRef .tc main_arg11) := by
  after_results <;> rfl

theorem keep_all (V : Valuation τ sig (Elt Ideal)) (b : DevRef τ sig)
    (h1 : ∀ W : Valuation τ sig (Elt Ideal), after ops1 W b = W b) (h2 : ∀ W : Valuation τ sig (Elt Ideal), after ops2 W b = W b)
    (h3 : ∀ W : Valuation τ sig (Elt Ideal), after ops3 W b = W b) : after ops V b = V b := by
  show after (ops1 ++ (ops2 ++ ops3)) V b = V b
  rw [after_append, after_append, h3, h2, h1]

variable (m : (ℓ : Loc nD τ sig) → Buf (Elt Ideal) ℓ) (ρ : Dev nD → PrngReg)

/-- The reference's hidden layers and positions, of the arguments. -/
def h0 (c : Dev nD) : FVec Ideal S50000x128 .f32 :=
  act (lin (A := 50000) (K := 2048) (B := 128) (m ((c.tc : Thread nD τ).loc main_arg0)) (wT1 (m ((c.tc : Thread nD τ).loc main_arg2))) (m ((c.tc : Thread nD τ).loc main_arg3)))
def h1 (c : Dev nD) : FVec Ideal S50000x64 .f32 :=
  act (conv (A := 50000) (K := 128) (B := 64) (agg128 (srcOf (m ((c.tc : Thread nD τ).loc main_arg1))) (dstOf (m ((c.tc : Thread nD τ).loc main_arg1))) (h0 m c)) (h0 m c)
    (wT2 (m ((c.tc : Thread nD τ).loc main_arg4))) (wT2 (m ((c.tc : Thread nD τ).loc main_arg6))) (m ((c.tc : Thread nD τ).loc main_arg5)))
def pos (c : Dev nD) : FVec Ideal S50000x3 .f32 :=
  lin (A := 50000) (K := 32) (B := 3)
    (act (conv (A := 50000) (K := 64) (B := 32) (agg64 (srcOf (m ((c.tc : Thread nD τ).loc main_arg1))) (dstOf (m ((c.tc : Thread nD τ).loc main_arg1))) (h1 m c)) (h1 m c)
      (wT3 (m ((c.tc : Thread nD τ).loc main_arg7))) (wT3 (m ((c.tc : Thread nD τ).loc main_arg9))) (m ((c.tc : Thread nD τ).loc main_arg8))))
    (wT4 (m ((c.tc : Thread nD τ).loc main_arg10))) (m ((c.tc : Thread nD τ).loc main_arg11))

/-- The whole line leaves the positions in the result buffer. -/
theorem value (c : Dev nD) : after ops (launchContents m c) (Proc.devRef .tc main_v68) = pos m c := by
  show after (ops1 ++ (ops2 ++ ops3)) (launchContents m c) (Proc.devRef .tc main_v68) = _
  rw [after_append, after_append, stage3, stage2, stage1]
  rw [keep2_arg1, keep2_arg7, keep2_arg8, keep2_arg9, keep2_arg10, keep2_arg11]
  rw [keep1_arg1, keep1_arg4, keep1_arg5, keep1_arg6, keep1_arg7, keep1_arg8, keep1_arg9, keep1_arg10, keep1_arg11]
  unfold pos h1 h0
  rfl

/-- THE RUN: every weakly fair execution of the reference terminates with the positions in its result buffer and the
    arguments unchanged. -/
theorem run : θ_run defs (onTc (τ := τ) (main (F := Ideal))) ⟨m, fun _ => 0, ρ⟩ fun r => ∀ c : Dev nD,
      r.2.mem ((c.tc : Thread nD τ).loc main_v68) = pos m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v68).trans (value m c),
      (h c main_arg0).trans (keep_all _ _ keep1_arg0 keep2_arg0 keep3_arg0),
      (h c main_arg1).trans (keep_all _ _ keep1_arg1 keep2_arg1 keep3_arg1),
      (h c main_arg2).trans (keep_all _ _ keep1_arg2 keep2_arg2 keep3_arg2),
      (h c main_arg3).trans (keep_all _ _ keep1_arg3 keep2_arg3 keep3_arg3),
      (h c main_arg4).trans (keep_all _ _ keep1_arg4 keep2_arg4 keep3_arg4),
      (h c main_arg5).trans (keep_all _ _ keep1_arg5 keep2_arg5 keep3_arg5),
      (h c main_arg6).trans (keep_all _ _ keep1_arg6 keep2_arg6 keep3_arg6),
      (h c main_arg7).trans (keep_all _ _ keep1_arg7 keep2_arg7 keep3_arg7),
      (h c main_arg8).trans (keep_all _ _ keep1_arg8 keep2_arg8 keep3_arg8),
      (h c main_arg9).trans (keep_all _ _ keep1_arg9 keep2_arg9 keep3_arg9),
      (h c main_arg10).trans (keep_all _ _ keep1_arg10 keep2_arg10 keep3_arg10),
      (h c main_arg11).trans (keep_all _ _ keep1_arg11 keep2_arg11 keep3_arg11)⟩)
    (run_seq scopedRefs_eq scopedSems_eq defs main (fun _ => ops) main_eq (fun _ => ops_sub) m ρ (fun _ => ops_fresh))

end Cert.Gnn.Ref

end
-- ==== Proof.lean ====
/-
  The certificate of a three-layer graph network: a row-tiled kernel program against its plain reference.

  Both programs compute, for 50000 nodes and 1600000 edges,
      h₀ = act (x·W₁ᵀ + b₁),   h₁ = act (agg h₀ · Wᵣ ᵀ + h₀ · Wₒᵀ + b₂),   h₂ = act (agg h₁ · Wᵣ'ᵀ + h₁ · Wₒ'ᵀ + b₃),
      positions = h₂ · Wₚᵀ + bₚ,
  where act is the leaky rectifier and agg h sums the rows of h over each node's incoming edges (a gather at the source
  nodes, a scatter-add at the destination nodes). The kernel program computes the three dense stages in three regions,
  each over 50 row blocks of 1000 nodes, and aggregates on the host between them; the reference is one line of host
  operations. On the extended reals a change of float format is the identity and a matrix product into a zero
  accumulator is the plain sum, so each region's block is the same layer of its rows that the reference computes of
  all rows (Proof/Blocks0..2.lean, Proof/Payload.lean); the aggregations are the same operations of the same edge
  list on both sides; and the only difference left is where a convolution adds its bias — between the two products in
  the reference, after them in the kernel — which commutativity and associativity of addition settle (Proof/Spec.lean,
  `pre_conv`). No law used needs the inputs finite, so the precondition is never opened.

  The frames of the two kernel programs are the generated ones; the reference's frame is its run with the result
  dropped (Proof/RefRun.lean); the idealization rewrote nothing, so `preserves` is trivial.
-/
import proofs.«110777_j69630009803228_1_alg».proof.Defs
import proofs.«110777_j69630009803228_1_alg».proof.Proof.Gen.Kernel
import proofs.«110777_j69630009803228_1_alg».proof.Proof.Gen.Kernel.Skeleton
import proofs.«110777_j69630009803228_1_alg».proof.Proof.Gen.Kernel.Launch
import proofs.«110777_j69630009803228_1_alg».proof.Proof.Gen.Kernel.Points
import proofs.«110777_j69630009803228_1_alg».proof.Proof.Gen.Kernel.Frame
import proofs.«110777_j69630009803228_1_alg».proof.Proof.Gen.KernelIdeal
import proofs.«110777_j69630009803228_1_alg».proof.Proof.Gen.KernelIdeal.Skeleton
import proofs.«110777_j69630009803228_1_alg».proof.Proof.Gen.KernelIdeal.Launch
import proofs.«110777_j69630009803228_1_alg».proof.Proof.Gen.KernelIdeal.Points
import proofs.«110777_j69630009803228_1_alg».proof.Proof.Gen.KernelIdeal.Frame
import proofs.«110777_j69630009803228_1_alg».proof.Proof.Gen.ReferenceIdeal
import proofs.«110777_j69630009803228_1_alg».proof.Proof.Gen.Pre_finite_inputs
import proofs.«110777_j69630009803228_1_alg».proof.Proof.KernelRun
import proofs.«110777_j69630009803228_1_alg».proof.Proof.RefRun
import Idealize.ShloMosaic.Adequacy
import Idealize.ShloMosaic.Init

set_option maxRecDepth 16384

noncomputable section

namespace Cert.Proof

open Idealize.ShloMosaic Idealize.SL.Sem

/-- From arguments that agree, the reference's positions are the kernel program's: the same layers of the same arrays,
    the aggregations the same operations of the same edge list. -/
theorem pos_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.Gnn.Ref.pos m' c = Cert.Gnn.Kernel.pos m c := by
  obtain ⟨e0, e1, e2, e3, e4, e5, e6, e7, e8, e9, e10, e11⟩ := hag
  unfold Cert.Gnn.Ref.pos Cert.Gnn.Ref.h1 Cert.Gnn.Ref.h0
  rw [e0, e1, e2, e3, e4, e5, e6, e7, e8, e9, e10, e11]
  rfl

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.Gnn.Ref.run m ρ)

/-- Both idealized programs run, and end with the same positions. -/
theorem algebraic : Cert.algebraic_KernelIdeal_ReferenceIdeal := by
  intro m ρ m' ρ' _ hagree
  refine ⟨fun c => Cert.Gnn.Kernel.pos m c, Cert.Gnn.Kernel.run m ρ, ?_⟩
  exact (θ_run Cert.ReferenceIdeal.defs _ _).mono (fun _ h c => ⟨(h c).1.trans (pos_eq m m' c (hagree c)), (h c).2⟩)
    (Cert.Gnn.Ref.run m' ρ')

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
